-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x50 : Shape := ⟨2, ![262144, 50]⟩
abbrev S2x4194304 : Shape := ⟨2, ![2, 4194304]⟩
abbrev S4194304 : Shape := ⟨1, ![4194304]⟩
abbrev S50x32 : Shape := ⟨2, ![50, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S256x8192 : Shape := ⟨2, ![256, 8192]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S262144x50 : S_.BroadcastsInDim S262144x50 (![] : Fin 0 → Fin S262144x50.rank)
  reducesTo_S262144x50_S_d0_1 : S262144x50.ReducesTo [0, 1] S_
  h_S_ : 0 < S_.numel
  bcast_S_S4194304 : S_.BroadcastsInDim S4194304 (![] : Fin 0 → Fin S4194304.rank)
  reducesTo_S4194304_S_d0 : S4194304.ReducesTo [0] S_
  bcast_S_S50x32 : S_.BroadcastsInDim S50x32 (![] : Fin 0 → Fin S50x32.rank)
  reducesTo_S50x32_S_d0_1 : S50x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S256x8192 : S_.BroadcastsInDim S256x8192 (![] : Fin 0 → Fin S256x8192.rank)
  reducesTo_S256x8192_S_d0_1 : S256x8192.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S128 .f32) (main_arg16 : FVec F S2x128 .f32) (main_arg17 : FVec F S2 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S2x128 .f32 := Host.absf main_arg16
  let main_cst_28 : FVec F S_ .f32 := constant S_ .f32 0x7F800000#32
  let main_v75 : FVec F S2x128 .f32 := broadcastInDim S2x128 ![] bcast_S_S2x128 main_cst_28
  let main_v76 : IVec S2x128 1 := cmpf .olt main_v74 main_v75
  let main_c_29 : IVec S_ 1 := constantI S_ 1 1#1
  let main_v77 : IVec S_ 1 := (fun x v => Host.reduce IntOp.andi x v reducesTo_S2x128_S_d0_1 h_S_) main_v76 main_c_29
  let main_v78 : IVec S_ 1 := andi main_v73 main_v77
  let main_v79 : FVec F S2 .f32 := Host.absf main_arg17
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg12 : FVec F S256x8192 .f32) (main_arg13 : FVec F S256 .f32) (main_arg14 : FVec F S128x256 .f32) (main_arg15 : FVec F S128 .f32) (main_arg16 : FVec F S2x128 .f32) (main_arg17 : FVec F S2 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S256x8192 .f32 := Host.absf main_arg12
  let main_cst_20 : FVec F S_ .f32 := constant S_ .f32 0x7F800000#32
  let main_v55 : FVec F S256x8192 .f32 := broadcastInDim S256x8192 ![] bcast_S_S256x8192 main_cst_20
  let main_v56 : IVec S256x8192 1 := cmpf .olt main_v54 main_v55
  let main_c_21 : IVec S_ 1 := constantI S_ 1 1#1
  let main_v57 : IVec S_ 1 := (fun x v => Host.reduce IntOp.andi x v reducesTo_S256x8192_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S128x256 .f32 := Host.absf main_arg14
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg15 main_arg16 main_arg17 main_v63 main_v67

def fn_part2 {F : FTy → Type} [FloatOps F] (main_arg8 : FVec F S32 .f32) (main_arg9 : FVec F S32x16 .f32) (main_arg10 : FVec F S32x16 .f32) (main_arg11 : FVec F S16 .f32) (main_arg12 : FVec F S256x8192 .f32) (main_arg13 : FVec F S256 .f32) (main_arg14 : FVec F S128x256 .f32) (main_arg15 : FVec F S128 .f32) (main_arg16 : FVec F S2x128 .f32) (main_arg17 : FVec F S2 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x16 .f32 := Host.absf main_arg9
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S32x16 .f32 := Host.absf main_arg10
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_arg14 main_arg15 main_arg16 main_arg17 main_v48 main_v49 main_v50

def fn_part1 {F : FTy → Type} [FloatOps F] (main_arg5 : FVec F S32 .f32) (main_arg6 : FVec F S32x32 .f32) (main_arg7 : FVec F S32x32 .f32) (main_arg8 : FVec F S32 .f32) (main_arg9 : FVec F S32x16 .f32) (main_arg10 : FVec F S32x16 .f32) (main_arg11 : FVec F S16 .f32) (main_arg12 : FVec F S256x8192 .f32) (main_arg13 : FVec F S256 .f32) (main_arg14 : FVec F S128x256 .f32) (main_arg15 : FVec F S128 .f32) (main_arg16 : FVec F S2x128 .f32) (main_arg17 : FVec F S2 .f32) (main_v13 : IVec S_ 1) (main_v16 : IVec S50x32 1) : IVec S_ 1 :=
  let main_c_5 : IVec S_ 1 := constantI S_ 1 1#1
  let main_v17 : IVec S_ 1 := (fun x v => Host.reduce IntOp.andi x v reducesTo_S50x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S262144x50 .f32) (main_arg1 : IVec S2x4194304 32) (main_arg2 : FVec F S4194304 .f32) (main_arg3 : FVec F S50x32 .f32) (main_arg4 : FVec F S50x32 .f32) (main_arg5 : FVec F S32 .f32) (main_arg6 : FVec F S32x32 .f32) (main_arg7 : FVec F S32x32 .f32) (main_arg8 : FVec F S32 .f32) (main_arg9 : FVec F S32x16 .f32) (main_arg10 : FVec F S32x16 .f32) (main_arg11 : FVec F S16 .f32) (main_arg12 : FVec F S256x8192 .f32) (main_arg13 : FVec F S256 .f32) (main_arg14 : FVec F S128x256 .f32) (main_arg15 : FVec F S128 .f32) (main_arg16 : FVec F S2x128 .f32) (main_arg17 : FVec F S2 .f32) : IVec S_ 1 :=
  let main_v0 : FVec F S262144x50 .f32 := Host.absf main_arg0
  let main_cst : FVec F S_ .f32 := constant S_ .f32 0x7F800000#32
  let main_v1 : FVec F S262144x50 .f32 := broadcastInDim S262144x50 ![] bcast_S_S262144x50 main_cst
  let main_v2 : IVec S262144x50 1 := cmpf .olt main_v0 main_v1
  let main_c : IVec S_ 1 := constantI S_ 1 1#1
  let main_v3 : IVec S_ 1 := (fun x v => Host.reduce IntOp.andi x v reducesTo_S262144x50_S_d0_1 h_S_) main_v2 main_c
  let main_v4 : FVec F S4194304 .f32 := Host.absf main_arg2
  let main_cst_0 : FVec F S_ .f32 := constant S_ .f32 0x7F800000#32
  let main_v5 : FVec F S4194304 .f32 := broadcastInDim S4194304 ![] bcast_S_S4194304 main_cst_0
  let main_v6 : IVec S4194304 1 := cmpf .olt main_v4 main_v5
  let main_c_1 : IVec S_ 1 := constantI S_ 1 1#1
  let main_v7 : IVec S_ 1 := (fun x v => Host.reduce IntOp.andi x v reducesTo_S4194304_S_d0 h_S_) main_v6 main_c_1
  let main_v8 : IVec S_ 1 := andi main_v3 main_v7
  let main_v9 : FVec F S50x32 .f32 := Host.absf main_arg3
  let main_cst_2 : FVec F S_ .f32 := constant S_ .f32 0x7F800000#32
  let main_v10 : FVec F S50x32 .f32 := broadcastInDim S50x32 ![] bcast_S_S50x32 main_cst_2
  let main_v11 : IVec S50x32 1 := cmpf .olt main_v9 main_v10
  let main_c_3 : IVec S_ 1 := constantI S_ 1 1#1
  let main_v12 : IVec S_ 1 := (fun x v => Host.reduce IntOp.andi x v reducesTo_S50x32_S_d0_1 h_S_) main_v11 main_c_3
  let main_v13 : IVec S_ 1 := andi main_v8 main_v12
  let main_v14 : FVec F S50x32 .f32 := Host.absf main_arg4
  let main_cst_4 : FVec F S_ .f32 := constant S_ .f32 0x7F800000#32
  let main_v15 : FVec F S50x32 .f32 := broadcastInDim S50x32 ![] bcast_S_S50x32 main_cst_4
  let main_v16 : IVec S50x32 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S262144x50 : Shape := ⟨2, ![262144, 50]⟩
abbrev S2x4194304 : Shape := ⟨2, ![2, 4194304]⟩
abbrev S4194304 : Shape := ⟨1, ![4194304]⟩
abbrev S50x32 : Shape := ⟨2, ![50, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S256x8192 : Shape := ⟨2, ![256, 8192]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S1x4194304 : Shape := ⟨2, ![1, 4194304]⟩
abbrev S_ : Shape := ⟨0, ![]⟩
abbrev S262144 : Shape := ⟨1, ![262144]⟩
abbrev S4194304x1 : Shape := ⟨2, ![4194304, 1]⟩
abbrev S4194304x50 : Shape := ⟨2, ![4194304, 50]⟩
abbrev S1x32 : Shape := ⟨2, ![1, 32]⟩
abbrev S262144x32 : Shape := ⟨2, ![262144, 32]⟩
abbrev S8192x50 : Shape := ⟨2, ![8192, 50]⟩
abbrev S8192x32 : Shape := ⟨2, ![8192, 32]⟩
abbrev S4194304x32 : Shape := ⟨2, ![4194304, 32]⟩
abbrev S1x16 : Shape := ⟨2, ![1, 16]⟩
abbrev S262144x16 : Shape := ⟨2, ![262144, 16]⟩
abbrev S8192x16 : Shape := ⟨2, ![8192, 16]⟩
abbrev S512x8192 : Shape := ⟨2, ![512, 8192]⟩
abbrev S8192x256 : Shape := ⟨2, ![8192, 256]⟩
abbrev S256x128 : Shape := ⟨2, ![256, 128]⟩
abbrev S128x2 : Shape := ⟨2, ![128, 2]⟩
abbrev S1x256 : Shape := ⟨2, ![1, 256]⟩
abbrev S1x128 : Shape := ⟨2, ![1, 128]⟩
abbrev S1x2 : Shape := ⟨2, ![1, 2]⟩
abbrev S512x2 : Shape := ⟨2, ![512, 2]⟩
abbrev S128x8192 : Shape := ⟨2, ![128, 8192]⟩
abbrev S128x128 : Shape := ⟨2, ![128, 128]⟩

abbrev nBuf : Space → Nat
  | .hbm => 117
  | .vmem => 37
  | .smem => 0
  | _ => 0

abbrev bufTy : (tb : Table) → Fin (tcTables nBuf tb) → BufTy
  | .hbm, ⟨0, _⟩ => ⟨S262144x50, .f32⟩
  | .hbm, ⟨1, _⟩ => ⟨S2x4194304, .i32⟩
  | .hbm, ⟨2, _⟩ => ⟨S4194304, .f32⟩
  | .hbm, ⟨3, _⟩ => ⟨S50x32, .f32⟩
  | .hbm, ⟨4, _⟩ => ⟨S50x32, .f32⟩
  | .hbm, ⟨5, _⟩ => ⟨S32, .f32⟩
  | .hbm, ⟨6, _⟩ => ⟨S32x32, .f32⟩
  | .hbm, ⟨7, _⟩ => ⟨S32x32, .f32⟩
  | .hbm, ⟨8, _⟩ => ⟨S32, .f32⟩
  | .hbm, ⟨9, _⟩ => ⟨S32x16, .f32⟩
  | .hbm, ⟨10, _⟩ => ⟨S32x16, .f32⟩
  | .hbm, ⟨11, _⟩ => ⟨S16, .f32⟩
  | .hbm, ⟨12, _⟩ => ⟨S256x8192, .f32⟩
  | .hbm, ⟨13, _⟩ => ⟨S256, .f32⟩
  | .hbm, ⟨14, _⟩ => ⟨S128x256, .f32⟩
  | .hbm, ⟨15, _⟩ => ⟨S128, .f32⟩
  | .hbm, ⟨16, _⟩ => ⟨S2x128, .f32⟩
  | .hbm, ⟨17, _⟩ => ⟨S2, .f32⟩
  | .hbm, ⟨18, _⟩ => ⟨S1x4194304, .i32⟩
  | .hbm, ⟨19, _⟩ => ⟨S4194304, .i32⟩
  | .hbm, ⟨20, _⟩ => ⟨S1x4194304, .i32⟩
  | .hbm, ⟨21, _⟩ => ⟨S4194304, .i32⟩
  | .hbm, ⟨22, _⟩ => ⟨S_, .f32⟩
  | .hbm, ⟨23, _⟩ => ⟨S262144, .f32⟩
  | .hbm, ⟨24, _⟩ => ⟨S4194304x1, .i32⟩
  | .hbm, ⟨25, _⟩ => ⟨S262144, .f32⟩
  | .hbm, ⟨26, _⟩ => ⟨S_, .f32⟩
  | .hbm, ⟨27, _⟩ => ⟨S262144, .f32⟩
  | .hbm, ⟨28, _⟩ => ⟨S262144, .i1⟩
  | .hbm, ⟨29, _⟩ => ⟨S262144, .f32⟩
  | .hbm, ⟨30, _⟩ => ⟨S_, .f32⟩
  | .hbm, ⟨31, _⟩ => ⟨S_, .f32⟩
  | .hbm, ⟨32, _⟩ => ⟨S262144, .f32⟩
  | .hbm, ⟨33, _⟩ => ⟨S262144, .f32⟩
  | .hbm, ⟨34, _⟩ => ⟨S4194304, .f32⟩
  | .hbm, ⟨35, _⟩ => ⟨S_, .i32⟩
  | .hbm, ⟨36, _⟩ => ⟨S4194304, .i32⟩
  | .hbm, ⟨37, _⟩ => ⟨S4194304, .i1⟩
  | .hbm, ⟨38, _⟩ => ⟨S_, .i32⟩
  | .hbm, ⟨39, _⟩ => ⟨S4194304, .i32⟩
  | .hbm, ⟨40, _⟩ => ⟨S4194304, .i32⟩
  | .hbm, ⟨41, _⟩ => ⟨S4194304, .i32⟩
  | .hbm, ⟨42, _⟩ => ⟨S4194304x1, .i32⟩
  | .hbm, ⟨43, _⟩ => ⟨S4194304, .f32⟩
  | .hbm, ⟨44, _⟩ => ⟨S4194304, .f32⟩
  | .hbm, ⟨45, _⟩ => ⟨S_, .i32⟩
  | .hbm, ⟨46, _⟩ => ⟨S4194304, .i32⟩
  | .hbm, ⟨47, _⟩ => ⟨S4194304, .i1⟩
  | .hbm, ⟨48, _⟩ => ⟨S_, .i32⟩
  | .hbm, ⟨49, _⟩ => ⟨S4194304, .i32⟩
  | .hbm, ⟨50, _⟩ => ⟨S4194304, .i32⟩
  | .hbm, ⟨51, _⟩ => ⟨S4194304, .i32⟩
  | .hbm, ⟨52, _⟩ => ⟨S4194304x1, .i32⟩
  | .hbm, ⟨53, _⟩ => ⟨S4194304, .f32⟩
  | .hbm, ⟨54, _⟩ => ⟨S4194304, .f32⟩
  | .hbm, ⟨55, _⟩ => ⟨S4194304x1, .f32⟩
  | .hbm, ⟨56, _⟩ => ⟨S_, .i32⟩
  | .hbm, ⟨57, _⟩ => ⟨S4194304, .i32⟩
  | .hbm, ⟨58, _⟩ => ⟨S4194304, .i1⟩
  | .hbm, ⟨59, _⟩ => ⟨S_, .i32⟩
  | .hbm, ⟨60, _⟩ => ⟨S4194304, .i32⟩
  | .hbm, ⟨61, _⟩ => ⟨S4194304, .i32⟩
  | .hbm, ⟨62, _⟩ => ⟨S4194304, .i32⟩
  | .hbm, ⟨63, _⟩ => ⟨S4194304x1, .i32⟩
  | .hbm, ⟨64, _⟩ => ⟨S4194304x50, .f32⟩
  | .hbm, ⟨65, _⟩ => ⟨S4194304x50, .f32⟩
  | .hbm, ⟨66, _⟩ => ⟨S4194304x50, .f32⟩
  | .hbm, ⟨67, _⟩ => ⟨S_, .f32⟩
  | .hbm, ⟨68, _⟩ => ⟨S262144x50, .f32⟩
  | .hbm, ⟨69, _⟩ => ⟨S4194304x1, .i32⟩
  | .hbm, ⟨70, _⟩ => ⟨S262144x50, .f32⟩
  | .hbm, ⟨71, _⟩ => ⟨S1x32, .f32⟩
  | .hbm, ⟨72, _⟩ => ⟨S262144x32, .f32⟩
  | .hbm, ⟨73, _⟩ => ⟨S4194304x1, .f32⟩
  | .hbm, ⟨74, _⟩ => ⟨S_, .i32⟩
  | .hbm, ⟨75, _⟩ => ⟨S4194304, .i32⟩
  | .hbm, ⟨76, _⟩ => ⟨S4194304, .i1⟩
  | .hbm, ⟨77, _⟩ => ⟨S_, .i32⟩
  | .hbm, ⟨78, _⟩ => ⟨S4194304, .i32⟩
  | .hbm, ⟨79, _⟩ => ⟨S4194304, .i32⟩
  | .hbm, ⟨80, _⟩ => ⟨S4194304, .i32⟩
  | .hbm, ⟨81, _⟩ => ⟨S4194304x1, .i32⟩
  | .hbm, ⟨82, _⟩ => ⟨S4194304x32, .f32⟩
  | .hbm, ⟨83, _⟩ => ⟨S4194304x32, .f32⟩
  | .hbm, ⟨84, _⟩ => ⟨S4194304x32, .f32⟩
  | .hbm, ⟨85, _⟩ => ⟨S_, .f32⟩
  | .hbm, ⟨86, _⟩ => ⟨S262144x32, .f32⟩
  | .hbm, ⟨87, _⟩ => ⟨S4194304x1, .i32⟩
  | .hbm, ⟨88, _⟩ => ⟨S262144x32, .f32⟩
  | .hbm, ⟨89, _⟩ => ⟨S1x32, .f32⟩
  | .hbm, ⟨90, _⟩ => ⟨S262144x32, .f32⟩
  | .hbm, ⟨91, _⟩ => ⟨S4194304x1, .f32⟩
  | .hbm, ⟨92, _⟩ => ⟨S_, .i32⟩
  | .hbm, ⟨93, _⟩ => ⟨S4194304, .i32⟩
  | .hbm, ⟨94, _⟩ => ⟨S4194304, .i1⟩
  | .hbm, ⟨95, _⟩ => ⟨S_, .i32⟩
  | .hbm, ⟨96, _⟩ => ⟨S4194304, .i32⟩
  | .hbm, ⟨97, _⟩ => ⟨S4194304, .i32⟩
  | .hbm, ⟨98, _⟩ => ⟨S4194304, .i32⟩
  | .hbm, ⟨99, _⟩ => ⟨S4194304x1, .i32⟩
  | .hbm, ⟨100, _⟩ => ⟨S4194304x32, .f32⟩
  | .hbm, ⟨101, _⟩ => ⟨S4194304x32, .f32⟩
  | .hbm, ⟨102, _⟩ => ⟨S4194304x32, .f32⟩
  | .hbm, ⟨103, _⟩ => ⟨S_, .f32⟩
  | .hbm, ⟨104, _⟩ => ⟨S262144x32, .f32⟩
  | .hbm, ⟨105, _⟩ => ⟨S4194304x1, .i32⟩
  | .hbm, ⟨106, _⟩ => ⟨S262144x32, .f32⟩
  | .hbm, ⟨107, _⟩ => ⟨S1x16, .f32⟩
  | .hbm, ⟨108, _⟩ => ⟨S262144x16, .f32⟩
  | .hbm, ⟨109, _⟩ => ⟨S512x8192, .f32⟩
  | .hbm, ⟨110, _⟩ => ⟨S8192x256, .f32⟩
  | .hbm, ⟨111, _⟩ => ⟨S256x128, .f32⟩
  | .hbm, ⟨112, _⟩ => ⟨S128x2, .f32⟩
  | .hbm, ⟨113, _⟩ => ⟨S1x256, .f32⟩
  | .hbm, ⟨114, _⟩ => ⟨S1x128, .f32⟩
  | .hbm, ⟨115, _⟩ => ⟨S1x2, .f32⟩
  | .hbm, ⟨116, _⟩ => ⟨S512x2, .f32⟩
  | .local _ .vmem, ⟨0, _⟩ => ⟨S8192x50, .f32⟩
  | .local _ .vmem, ⟨1, _⟩ => ⟨S8192x50, .f32⟩
  | .local _ .vmem, ⟨2, _⟩ => ⟨S8192x50, .f32⟩
  | .local _ .vmem, ⟨3, _⟩ => ⟨S8192x50, .f32⟩
  | .local _ .vmem, ⟨4, _⟩ => ⟨S50x32, .f32⟩
  | .local _ .vmem, ⟨5, _⟩ => ⟨S50x32, .f32⟩
  | .local _ .vmem, ⟨6, _⟩ => ⟨S1x32, .f32⟩
  | .local _ .vmem, ⟨7, _⟩ => ⟨S8192x32, .f32⟩
  | .local _ .vmem, ⟨8, _⟩ => ⟨S8192x32, .f32⟩
  | .local _ .vmem, ⟨9, _⟩ => ⟨S8192x32, .f32⟩
  | .local _ .vmem, ⟨10, _⟩ => ⟨S8192x32, .f32⟩
  | .local _ .vmem, ⟨11, _⟩ => ⟨S8192x32, .f32⟩
  | .local _ .vmem, ⟨12, _⟩ => ⟨S8192x32, .f32⟩
  | .local _ .vmem, ⟨13, _⟩ => ⟨S32x32, .f32⟩
  | .local _ .vmem, ⟨14, _⟩ => ⟨S32x32, .f32⟩
  | .local _ .vmem, ⟨15, _⟩ => ⟨S1x32, .f32⟩
  | .local _ .vmem, ⟨16, _⟩ => ⟨S8192x32, .f32⟩
  | .local _ .vmem, ⟨17, _⟩ => ⟨S8192x32, .f32⟩
  | .local _ .vmem, ⟨18, _⟩ => ⟨S8192x32, .f32⟩
  | .local _ .vmem, ⟨19, _⟩ => ⟨S8192x32, .f32⟩
  | .local _ .vmem, ⟨20, _⟩ => ⟨S8192x32, .f32⟩
  | .local _ .vmem, ⟨21, _⟩ => ⟨S8192x32, .f32⟩
  | .local _ .vmem, ⟨22, _⟩ => ⟨S32x16, .f32⟩
  | .local _ .vmem, ⟨23, _⟩ => ⟨S32x16, .f32⟩
  | .local _ .vmem, ⟨24, _⟩ => ⟨S1x16, .f32⟩
  | .local _ .vmem, ⟨25, _⟩ => ⟨S8192x16, .f32⟩
  | .local _ .vmem, ⟨26, _⟩ => ⟨S8192x16, .f32⟩
  | .local _ .vmem, ⟨27, _⟩ => ⟨S128x8192, .f32⟩
  | .local _ .vmem, ⟨28, _⟩ => ⟨S128x8192, .f32⟩
  | .local _ .vmem, ⟨29, _⟩ => ⟨S8192x256, .f32⟩
  | .local _ .vmem, ⟨30, _⟩ => ⟨S1x256, .f32⟩
  | .local _ .vmem, ⟨31, _⟩ => ⟨S256x128, .f32⟩
  | .local _ .vmem, ⟨32, _⟩ => ⟨S1x128, .f32⟩
  | .local _ .vmem, ⟨33, _⟩ => ⟨S128x2, .f32⟩
  | .local _ .vmem, ⟨34, _⟩ => ⟨S1x2, .f32⟩
  | .local _ .vmem, ⟨35, _⟩ => ⟨S128x2, .f32⟩
  | .local _ .vmem, ⟨36, _⟩ => ⟨S128x2, .f32⟩
  | _, _ => ⟨S262144x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_3 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_8 : Ref sig .tc := ⟨.hbm, 74, rfl⟩
abbrev main_v44 : Ref sig .tc := ⟨.hbm, 75, rfl⟩
abbrev main_v45 : Ref sig .tc := ⟨.hbm, 76, rfl⟩
abbrev main_c_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_c_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_13 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg7_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem7_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8192x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S128x2 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  bcast_S_S262144 : S_.BroadcastsInDim S262144 (![] : Fin 0 → Fin S262144.rank)
  bcast_S4194304_S4194304x1_0 : S4194304.BroadcastsInDim S4194304x1 (![0] : Fin 1 → Fin S4194304x1.rank)
  bcast_S_S4194304 : S_.BroadcastsInDim S4194304 (![] : Fin 0 → Fin S4194304.rank)
  bcast_S4194304x1_S4194304x50_0_1 : S4194304x1.BroadcastsInDim S4194304x50 (![0, 1] : Fin 2 → Fin S4194304x50.rank)
  bcast_S_S262144x50 : S_.BroadcastsInDim S262144x50 (![] : Fin 0 → Fin S262144x50.rank)
  shapeCasts_S32_S1x32 : S32.ShapeCasts S1x32
  inb_S8192x50_S8192x50_0_0 : ∀ a, (![0, 0] : Fin 2 → Nat) a + S8192x50.size a ≤ S8192x50.size a
  h_S8192x50 : 0 < S8192x50.numel
  bitsLt_bf16_f32 : FTy.bits .bf16 < FTy.bits .f32
  shapeCasts_S8192x50_S8192x50 : S8192x50.ShapeCasts S8192x50
  inb_S50x32_S50x32_0_0 : ∀ a, (![0, 0] : Fin 2 → Nat) a + S50x32.size a ≤ S50x32.size a
  h_S50x32 : 0 < S50x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  inb_S8192x32_S8192x32_0_0 : ∀ a, (![0, 0] : Fin 2 → Nat) a + S8192x32.size a ≤ S8192x32.size a
  h_S8192x32 : 0 < S8192x32.numel
  bcast_S4194304x1_S4194304x32_0_1 : S4194304x1.BroadcastsInDim S4194304x32 (![0, 1] : Fin 2 → Fin S4194304x32.rank)
  bcast_S_S262144x32 : S_.BroadcastsInDim S262144x32 (![] : Fin 0 → Fin S262144x32.rank)
  shapeCasts_S8192x32_S8192x32 : S8192x32.ShapeCasts S8192x32
  inb_S32x32_S32x32_0_0 : ∀ a, (![0, 0] : Fin 2 → Nat) a + S32x32.size a ≤ S32x32.size a
  h_S32x32 : 0 < S32x32.numel
  shapeCasts_S16_S1x16 : S16.ShapeCasts S1x16
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S8192x16_S8192x16_0_0 : ∀ a, (![0, 0] : Fin 2 → Nat) a + S8192x16.size a ≤ S8192x16.size a
  h_S8192x16 : 0 < S8192x16.numel
  shapeCasts_S262144x16_S512x8192 : S262144x16.ShapeCasts S512x8192
  transposes_S256x8192_S8192x256_1_0 : S256x8192.Transposes [1, 0] S8192x256
  transposes_S128x256_S256x128_1_0 : S128x256.Transposes [1, 0] S256x128
  transposes_S2x128_S128x2_1_0 : S2x128.Transposes [1, 0] S128x2
  shapeCasts_S256_S1x256 : S256.ShapeCasts S1x256
  shapeCasts_S128_S1x128 : S128.ShapeCasts S1x128
  shapeCasts_S2_S1x2 : S2.ShapeCasts S1x2
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  scatter_S262144_S4194304x1_S4194304_n_0_0_1_wf : ScatterDims.WF S262144 S4194304x1 S4194304 [] [0] [0] 1
  gather_S262144_S4194304x1_S4194304_n_0_n_n_0_1_1_wf : GatherDims.WF S262144 S4194304x1 S4194304 [] [0] [] [0] [] 1 ![1]
  gather_S262144x50_S4194304x1_S4194304x50_1_0_n_n_0_1_150_wf : GatherDims.WF S262144x50 S4194304x1 S4194304x50 [1] [0] [] [0] [] 1 ![1, 50]
  scatter_S262144x50_S4194304x1_S4194304x50_1_0_0_1_wf : ScatterDims.WF S262144x50 S4194304x1 S4194304x50 [1] [0] [0] 1
  dot_S8192x50_S50x32_S8192x32_1_0_0_1_n_n_wf : DotDims.WF S8192x50 S50x32 S8192x32 [1] [0] [0] [1] [] []
  gather_S262144x32_S4194304x1_S4194304x32_1_0_n_n_0_1_132_wf : GatherDims.WF S262144x32 S4194304x1 S4194304x32 [1] [0] [] [0] [] 1 ![1, 32]
  scatter_S262144x32_S4194304x1_S4194304x32_1_0_0_1_wf : ScatterDims.WF S262144x32 S4194304x1 S4194304x32 [1] [0] [0] 1
  dot_S8192x32_S32x32_S8192x32_1_0_0_1_n_n_wf : DotDims.WF S8192x32 S32x32 S8192x32 [1] [0] [0] [1] [] []
  dot_S8192x32_S32x16_S8192x16_1_0_0_1_n_n_wf : DotDims.WF S8192x32 S32x16 S8192x16 [1] [0] [0] [1] [] []
  dot_S128x8192_S8192x256_S128x256_1_0_0_1_n_n_wf : DotDims.WF S128x8192 S8192x256 S128x256 [1] [0] [0] [1] [] []
  dot_S128x256_S256x128_S128x128_1_0_0_1_n_n_wf : DotDims.WF S128x256 S256x128 S128x128 [1] [0] [0] [1] [] []
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x50.size a ≤ S262144x50.size a
  hwx0_0 : ∀ i : grid0.Coords, EltTy.bits .f32 = 32 ∨ (Rect.block (s := S262144x50) S8192x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x50.size a ≤ S262144x50.size a
  hwx0_1 : ∀ i : grid0.Coords, EltTy.bits .f32 = 32 ∨ (Rect.block (s := S262144x50) S8192x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x32.size a ≤ S50x32.size a
  hwx0_2 : ∀ i : grid0.Coords, EltTy.bits .f32 = 32 ∨ (Rect.block (s := S50x32) S50x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x32.size a ≤ S50x32.size a
  hwx0_3 : ∀ i : grid0.Coords, EltTy.bits .f32 = 32 ∨ (Rect.block (s := S50x32) S50x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x32.size a ≤ S262144x32.size a
  hwx0_5 : ∀ i : grid0.Coords, EltTy.bits .f32 = 32 ∨ (Rect.block (s := S262144x32) S8192x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x32.size a ≤ S262144x32.size a
  hwx1_0 : ∀ i : grid1.Coords, EltTy.bits .f32 = 32 ∨ (Rect.block (s := S262144x32) S8192x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x32.size a ≤ S262144x32.size a
  hwx1_1 : ∀ i : grid1.Coords, EltTy.bits .f32 = 32 ∨ (Rect.block (s := S262144x32) S8192x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x32.size a ≤ S262144x32.size a
  hwx1_5 : ∀ i : grid1.Coords, EltTy.bits .f32 = 32 ∨ (Rect.block (s := S262144x32) S8192x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x32.size a ≤ S262144x32.size a
  hwx2_0 : ∀ i : grid2.Coords, EltTy.bits .f32 = 32 ∨ (Rect.block (s := S262144x32) S8192x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x32.size a ≤ S262144x32.size a
  hwx2_1 : ∀ i : grid2.Coords, EltTy.bits .f32 = 32 ∨ (Rect.block (s := S262144x32) S8192x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x16.size a ≤ S32x16.size a
  hwx2_3 : ∀ i : grid2.Coords, EltTy.bits .f32 = 32 ∨ (Rect.block (s := S32x16) S32x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8192x16.size a ≤ S262144x16.size a
  hwx2_5 : ∀ i : grid2.Coords, EltTy.bits .f32 = 32 ∨ (Rect.block (s := S262144x16) S8192x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x8192.size a ≤ S512x8192.size a
  hwx3_0 : ∀ i : grid3.Coords, EltTy.bits .f32 = 32 ∨ (Rect.block (s := S512x8192) S128x8192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x256.size a ≤ S8192x256.size a
  hwx3_1 : ∀ i : grid3.Coords, EltTy.bits .f32 = 32 ∨ (Rect.block (s := S8192x256) S8192x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x2.size a ≤ S128x2.size a
  hwx3_5 : ∀ i : grid3.Coords, EltTy.bits .f32 = 32 ∨ (Rect.block (s := S128x2) S128x2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2.size a ≤ S1x2.size a
  hwx3_6 : ∀ i : grid3.Coords, EltTy.bits .f32 = 32 ∨ (Rect.block (s := S1x2) S1x2.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S128x2.size a ≤ S512x2.size a
  hwx3_7 : ∀ i : grid3.Coords, EltTy.bits .f32 = 32 ∨ (Rect.block (s := S512x2) S128x2.size (cc3_transform_7 i) (hinb3_7 i)).WholeWords (EltTy.packing .f32)

variable [Facts₀]

def scatter_S262144_S4194304x1_S4194304_n_0_0_1 : ScatterDims S262144 S4194304x1 S4194304 where
  updateWindowDims := []
  insertedWindowDims := [0]
  scatterDimsToOperandDims := [0]
  indexVectorDim := 1
  wf := scatter_S262144_S4194304x1_S4194304_n_0_0_1_wf
def gather_S262144_S4194304x1_S4194304_n_0_n_n_0_1_1 : GatherDims S262144 S4194304x1 S4194304 where
  offsetDims := []
  collapsedSliceDims := [0]
  operandBatchingDims := []
  startIndicesBatchingDims := []
  startIndexMap := [0]
  indexVectorDim := 1
  sliceSizes := ![1]
  wf := gather_S262144_S4194304x1_S4194304_n_0_n_n_0_1_1_wf
def gather_S262144x50_S4194304x1_S4194304x50_1_0_n_n_0_1_150 : GatherDims S262144x50 S4194304x1 S4194304x50 where
  offsetDims := [1]
  collapsedSliceDims := [0]
  operandBatchingDims := []
  startIndicesBatchingDims := []
  startIndexMap := [0]
  indexVectorDim := 1
  sliceSizes := ![1, 50]
  wf := gather_S262144x50_S4194304x1_S4194304x50_1_0_n_n_0_1_150_wf
def scatter_S262144x50_S4194304x1_S4194304x50_1_0_0_1 : ScatterDims S262144x50 S4194304x1 S4194304x50 where
  updateWindowDims := [1]
  insertedWindowDims := [0]
  scatterDimsToOperandDims := [0]
  indexVectorDim := 1
  wf := scatter_S262144x50_S4194304x1_S4194304x50_1_0_0_1_wf
def dot_S8192x50_S50x32_S8192x32_1_0_0_1_n_n : DotDims S8192x50 S50x32 S8192x32 where
  lhsContracting := [1]
  rhsContracting := [0]
  lhsNonContracting := [0]
  rhsNonContracting := [1]
  lhsBatch := []
  rhsBatch := []
  wf := dot_S8192x50_S50x32_S8192x32_1_0_0_1_n_n_wf
def gather_S262144x32_S4194304x1_S4194304x32_1_0_n_n_0_1_132 : GatherDims S262144x32 S4194304x1 S4194304x32 where
  offsetDims := [1]
  collapsedSliceDims := [0]
  operandBatchingDims := []
  startIndicesBatchingDims := []
  startIndexMap := [0]
  indexVectorDim := 1
  sliceSizes := ![1, 32]
  wf := gather_S262144x32_S4194304x1_S4194304x32_1_0_n_n_0_1_132_wf
def scatter_S262144x32_S4194304x1_S4194304x32_1_0_0_1 : ScatterDims S262144x32 S4194304x1 S4194304x32 where
  updateWindowDims := [1]
  insertedWindowDims := [0]
  scatterDimsToOperandDims := [0]
  indexVectorDim := 1
  wf := scatter_S262144x32_S4194304x1_S4194304x32_1_0_0_1_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S128x8192_S8192x256_S128x256_1_0_0_1_n_n : DotDims S128x8192 S8192x256 S128x256 where
  lhsContracting := [1]
  rhsContracting := [0]
  lhsNonContracting := [0]
  rhsNonContracting := [1]
  lhsBatch := []
  rhsBatch := []
  wf := dot_S128x8192_S8192x256_S128x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_arg0) S8192x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S8192x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S50x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S50x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S8192x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S8192x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S8192x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S8192x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S8192x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S8192x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S32x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S8192x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v73) S128x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S8192x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S128x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S1x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v80) S128x2.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S262144x50 : Shape := ⟨2, ![262144, 50]⟩
abbrev S2x4194304 : Shape := ⟨2, ![2, 4194304]⟩
abbrev S4194304 : Shape := ⟨1, ![4194304]⟩
abbrev S50x32 : Shape := ⟨2, ![50, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S256x8192 : Shape := ⟨2, ![256, 8192]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S1x4194304 : Shape := ⟨2, ![1, 4194304]⟩
abbrev S_ : Shape := ⟨0, ![]⟩
abbrev S262144 : Shape := ⟨1, ![262144]⟩
abbrev S4194304x1 : Shape := ⟨2, ![4194304, 1]⟩
abbrev S4194304x50 : Shape := ⟨2, ![4194304, 50]⟩
abbrev S262144x32 : Shape := ⟨2, ![262144, 32]⟩
abbrev S1x32 : Shape := ⟨2, ![1, 32]⟩
abbrev S4194304x32 : Shape := ⟨2, ![4194304, 32]⟩
abbrev S262144x16 : Shape := ⟨2, ![262144, 16]⟩
abbrev S1x16 : Shape := ⟨2, ![1, 16]⟩
abbrev S512x8192 : Shape := ⟨2, ![512, 8192]⟩
abbrev S8192x256 : Shape := ⟨2, ![8192, 256]⟩
abbrev S512x256 : Shape := ⟨2, ![512, 256]⟩
abbrev S1x256 : Shape := ⟨2, ![1, 256]⟩
abbrev S256x128 : Shape := ⟨2, ![256, 128]⟩
abbrev S512x128 : Shape := ⟨2, ![512, 128]⟩
abbrev S1x128 : Shape := ⟨2, ![1, 128]⟩
abbrev S128x2 : Shape := ⟨2, ![128, 2]⟩
abbrev S512x2 : Shape := ⟨2, ![512, 2]⟩
abbrev S1x2 : Shape := ⟨2, ![1, 2]⟩

abbrev nBuf : Space → Nat
  | .hbm => 146
  | .vmem => 0
  | .smem => 0
  | _ => 0

abbrev hbmTy0_0 (i : Nat) : BufTy := match i % 128 with
  | 0 => ⟨S262144x50, .f32⟩
  | 1 => ⟨S2x4194304, .i32⟩
  | 2 => ⟨S4194304, .f32⟩
  | 3 => ⟨S50x32, .f32⟩
  | 4 => ⟨S50x32, .f32⟩
  | 5 => ⟨S32, .f32⟩
  | 6 => ⟨S32x32, .f32⟩
  | 7 => ⟨S32x32, .f32⟩
  | 8 => ⟨S32, .f32⟩
  | 9 => ⟨S32x16, .f32⟩
  | 10 => ⟨S32x16, .f32⟩
  | 11 => ⟨S16, .f32⟩
  | 12 => ⟨S256x8192, .f32⟩
  | 13 => ⟨S256, .f32⟩
  | 14 => ⟨S128x256, .f32⟩
  | 15 => ⟨S128, .f32⟩
  | 16 => ⟨S2x128, .f32⟩
  | 17 => ⟨S2, .f32⟩
  | 18 => ⟨S1x4194304, .i32⟩
  | 19 => ⟨S4194304, .i32⟩
  | 20 => ⟨S1x4194304, .i32⟩
  | 21 => ⟨S4194304, .i32⟩
  | 22 => ⟨S_, .f32⟩
  | 23 => ⟨S262144, .f32⟩
  | 24 => ⟨S4194304x1, .i32⟩
  | 25 => ⟨S262144, .f32⟩
  | 26 => ⟨S_, .f32⟩
  | 27 => ⟨S262144, .f32⟩
  | 28 => ⟨S262144, .i1⟩
  | 29 => ⟨S262144, .f32⟩
  | 30 => ⟨S_, .f32⟩
  | 31 => ⟨S_, .f32⟩
  | 32 => ⟨S262144, .f32⟩
  | 33 => ⟨S262144, .f32⟩
  | 34 => ⟨S4194304, .f32⟩
  | 35 => ⟨S_, .i32⟩
  | 36 => ⟨S4194304, .i32⟩
  | 37 => ⟨S4194304, .i1⟩
  | 38 => ⟨S_, .i32⟩
  | 39 => ⟨S4194304, .i32⟩
  | 40 => ⟨S4194304, .i32⟩
  | 41 => ⟨S4194304, .i32⟩
  | 42 => ⟨S4194304x1, .i32⟩
  | 43 => ⟨S4194304, .f32⟩
  | 44 => ⟨S4194304, .f32⟩
  | 45 => ⟨S_, .i32⟩
  | 46 => ⟨S4194304, .i32⟩
  | 47 => ⟨S4194304, .i1⟩
  | 48 => ⟨S_, .i32⟩
  | 49 => ⟨S4194304, .i32⟩
  | 50 => ⟨S4194304, .i32⟩
  | 51 => ⟨S4194304, .i32⟩
  | 52 => ⟨S4194304x1, .i32⟩
  | 53 => ⟨S4194304, .f32⟩
  | 54 => ⟨S4194304, .f32⟩
  | 55 => ⟨S4194304x1, .f32⟩
  | 56 => ⟨S_, .i32⟩
  | 57 => ⟨S4194304, .i32⟩
  | 58 => ⟨S4194304, .i1⟩
  | 59 => ⟨S_, .i32⟩
  | 60 => ⟨S4194304, .i32⟩
  | 61 => ⟨S4194304, .i32⟩
  | 62 => ⟨S4194304, .i32⟩
  | 63 => ⟨S4194304x1, .i32⟩
  | 64 => ⟨S4194304x50, .f32⟩
  | 65 => ⟨S4194304x50, .f32⟩
  | 66 => ⟨S4194304x50, .f32⟩
  | 67 => ⟨S_, .f32⟩
  | 68 => ⟨S262144x50, .f32⟩
  | 69 => ⟨S4194304x1, .i32⟩
  | 70 => ⟨S262144x50, .f32⟩
  | 71 => ⟨S262144x32, .f32⟩
  | 72 => ⟨S262144x32, .f32⟩
  | 73 => ⟨S262144x32, .f32⟩
  | 74 => ⟨S1x32, .f32⟩
  | 75 => ⟨S262144x32, .f32⟩
  | 76 => ⟨S262144x32, .f32⟩
  | 77 => ⟨S_, .f32⟩
  | 78 => ⟨S262144x32, .f32⟩
  | 79 => ⟨S262144x32, .f32⟩
  | 80 => ⟨S4194304x1, .f32⟩
  | 81 => ⟨S_, .i32⟩
  | 82 => ⟨S4194304, .i32⟩
  | 83 => ⟨S4194304, .i1⟩
  | 84 => ⟨S_, .i32⟩
  | 85 => ⟨S4194304, .i32⟩
  | 86 => ⟨S4194304, .i32⟩
  | 87 => ⟨S4194304, .i32⟩
  | 88 => ⟨S4194304x1, .i32⟩
  | 89 => ⟨S4194304x32, .f32⟩
  | 90 => ⟨S4194304x32, .f32⟩
  | 91 => ⟨S4194304x32, .f32⟩
  | 92 => ⟨S_, .f32⟩
  | 93 => ⟨S262144x32, .f32⟩
  | 94 => ⟨S4194304x1, .i32⟩
  | 95 => ⟨S262144x32, .f32⟩
  | 96 => ⟨S262144x32, .f32⟩
  | 97 => ⟨S262144x32, .f32⟩
  | 98 => ⟨S262144x32, .f32⟩
  | 99 => ⟨S1x32, .f32⟩
  | 100 => ⟨S262144x32, .f32⟩
  | 101 => ⟨S262144x32, .f32⟩
  | 102 => ⟨S_, .f32⟩
  | 103 => ⟨S262144x32, .f32⟩
  | 104 => ⟨S262144x32, .f32⟩
  | 105 => ⟨S4194304x1, .f32⟩
  | 106 => ⟨S_, .i32⟩
  | 107 => ⟨S4194304, .i32⟩
  | 108 => ⟨S4194304, .i1⟩
  | 109 => ⟨S_, .i32⟩
  | 110 => ⟨S4194304, .i32⟩
  | 111 => ⟨S4194304, .i32⟩
  | 112 => ⟨S4194304, .i32⟩
  | 113 => ⟨S4194304x1, .i32⟩
  | 114 => ⟨S4194304x32, .f32⟩
  | 115 => ⟨S4194304x32, .f32⟩
  | 116 => ⟨S4194304x32, .f32⟩
  | 117 => ⟨S_, .f32⟩
  | 118 => ⟨S262144x32, .f32⟩
  | 119 => ⟨S4194304x1, .i32⟩
  | 120 => ⟨S262144x32, .f32⟩
  | 121 => ⟨S262144x16, .f32⟩
  | 122 => ⟨S262144x16, .f32⟩
  | 123 => ⟨S262144x16, .f32⟩
  | 124 => ⟨S1x16, .f32⟩
  | 125 => ⟨S262144x16, .f32⟩
  | 126 => ⟨S262144x16, .f32⟩
  | 127 => ⟨S_, .f32⟩
  | _ => ⟨S262144x50, .f32⟩

abbrev hbmTy0_1 (i : Nat) : BufTy := match i % 128 with
  | 0 => ⟨S262144x16, .f32⟩
  | 1 => ⟨S262144x16, .f32⟩
  | 2 => ⟨S512x8192, .f32⟩
  | 3 => ⟨S8192x256, .f32⟩
  | 4 => ⟨S512x256, .f32⟩
  | 5 => ⟨S1x256, .f32⟩
  | 6 => ⟨S512x256, .f32⟩
  | 7 => ⟨S512x256, .f32⟩
  | 8 => ⟨S256x128, .f32⟩
  | 9 => ⟨S512x128, .f32⟩
  | 10 => ⟨S1x128, .f32⟩
  | 11 => ⟨S512x128, .f32⟩
  | 12 => ⟨S512x128, .f32⟩
  | 13 => ⟨S128x2, .f32⟩
  | 14 => ⟨S512x2, .f32⟩
  | 15 => ⟨S1x2, .f32⟩
  | 16 => ⟨S512x2, .f32⟩
  | 17 => ⟨S512x2, .f32⟩
  | _ => ⟨S262144x50, .f32⟩

abbrev hbmTy (i : Nat) : BufTy := match i / 128 with
  | 0 => hbmTy0_0 i
  | 1 => hbmTy0_1 i
  | _ => ⟨S262144x50, .f32⟩

abbrev bufTy : (tb : Table) → Fin (tcTables nBuf tb) → BufTy
  | .hbm, ⟨i, _⟩ => hbmTy i
  | _, _ => ⟨S262144x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_3 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call1_cst : Ref sig .tc := ⟨.hbm, 77, rfl⟩
abbrev main_call1_v0 : Ref sig .tc := ⟨.hbm, 78, rfl⟩
abbrev main_v47 : Ref sig .tc := ⟨.hbm, 79, rfl⟩
abbrev main_v48 : Ref sig .tc := ⟨.hbm, 80, rfl⟩
abbrev main_c_8 : Ref sig .tc := ⟨.hbm, 81, rfl⟩
abbrev main_v49 : Ref sig .tc := ⟨.hbm, 82, rfl⟩
abbrev main_v50 : Ref sig .tc := ⟨.hbm, 83, rfl⟩
abbrev main_c_9 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_10 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call2_cst : Ref sig .tc := ⟨.hbm, 102, rfl⟩
abbrev main_call2_v0 : Ref sig .tc := ⟨.hbm, 103, rfl⟩
abbrev main_v67 : Ref sig .tc := ⟨.hbm, 104, rfl⟩
abbrev main_v68 : Ref sig .tc := ⟨.hbm, 105, rfl⟩
abbrev main_c_11 : Ref sig .tc := ⟨.hbm, 106, rfl⟩
abbrev main_v69 : Ref sig .tc := ⟨.hbm, 107, rfl⟩
abbrev main_v70 : Ref sig .tc := ⟨.hbm, 108, rfl⟩
abbrev main_c_12 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_13 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_call3_cst : Ref sig .tc := ⟨.hbm, 127, rfl⟩
abbrev main_call3_v0 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩

abbrev nD : Nat := 1
abbrev τ : Topo := Topo.v7x

variable {F : FTy → Type} [FloatOps F]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  bcast_S_S262144 : S_.BroadcastsInDim S262144 (![] : Fin 0 → Fin S262144.rank)
  bcast_S4194304_S4194304x1_0 : S4194304.BroadcastsInDim S4194304x1 (![0] : Fin 1 → Fin S4194304x1.rank)
  bcast_S_S4194304 : S_.BroadcastsInDim S4194304 (![] : Fin 0 → Fin S4194304.rank)
  bcast_S4194304x1_S4194304x50_0_1 : S4194304x1.BroadcastsInDim S4194304x50 (![0, 1] : Fin 2 → Fin S4194304x50.rank)
  bcast_S_S262144x50 : S_.BroadcastsInDim S262144x50 (![] : Fin 0 → Fin S262144x50.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S_S262144x32 : S_.BroadcastsInDim S262144x32 (![] : Fin 0 → Fin S262144x32.rank)
  bcast_S4194304x1_S4194304x32_0_1 : S4194304x1.BroadcastsInDim S4194304x32 (![0, 1] : Fin 2 → Fin S4194304x32.rank)
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  bcast_S_S262144x16 : S_.BroadcastsInDim S262144x16 (![] : Fin 0 → Fin S262144x16.rank)
  shapeCasts_S262144x16_S512x8192 : S262144x16.ShapeCasts S512x8192
  transposes_S256x8192_S8192x256_1_0 : S256x8192.Transposes [1, 0] S8192x256
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  transposes_S128x256_S256x128_1_0 : S128x256.Transposes [1, 0] S256x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  transposes_S2x128_S128x2_1_0 : S2x128.Transposes [1, 0] S128x2
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S262144_S4194304x1_S4194304_n_0_0_1_wf : ScatterDims.WF S262144 S4194304x1 S4194304 [] [0] [0] 1
  gather_S262144_S4194304x1_S4194304_n_0_n_n_0_1_1_wf : GatherDims.WF S262144 S4194304x1 S4194304 [] [0] [] [0] [] 1 ![1]
  gather_S262144x50_S4194304x1_S4194304x50_1_0_n_n_0_1_150_wf : GatherDims.WF S262144x50 S4194304x1 S4194304x50 [1] [0] [] [0] [] 1 ![1, 50]
  scatter_S262144x50_S4194304x1_S4194304x50_1_0_0_1_wf : ScatterDims.WF S262144x50 S4194304x1 S4194304x50 [1] [0] [0] 1
  dot_S262144x50_S50x32_S262144x32_1_0_0_1_n_n_wf : DotDims.WF S262144x50 S50x32 S262144x32 [1] [0] [0] [1] [] []
  gather_S262144x32_S4194304x1_S4194304x32_1_0_n_n_0_1_132_wf : GatherDims.WF S262144x32 S4194304x1 S4194304x32 [1] [0] [] [0] [] 1 ![1, 32]
  scatter_S262144x32_S4194304x1_S4194304x32_1_0_0_1_wf : ScatterDims.WF S262144x32 S4194304x1 S4194304x32 [1] [0] [0] 1
  dot_S262144x32_S32x32_S262144x32_1_0_0_1_n_n_wf : DotDims.WF S262144x32 S32x32 S262144x32 [1] [0] [0] [1] [] []
  dot_S262144x32_S32x16_S262144x16_1_0_0_1_n_n_wf : DotDims.WF S262144x32 S32x16 S262144x16 [1] [0] [0] [1] [] []
  dot_S512x8192_S8192x256_S512x256_1_0_0_1_n_n_wf : DotDims.WF S512x8192 S8192x256 S512x256 [1] [0] [0] [1] [] []
  dot_S512x256_S256x128_S512x128_1_0_0_1_n_n_wf : DotDims.WF S512x256 S256x128 S512x128 [1] [0] [0] [1] [] []
  dot_S512x128_S128x2_S512x2_1_0_0_1_n_n_wf : DotDims.WF S512x128 S128x2 S512x2 [1] [0] [0] [1] [] []

variable [Facts₀]

def scatter_S262144_S4194304x1_S4194304_n_0_0_1 : ScatterDims S262144 S4194304x1 S4194304 where
  updateWindowDims := []
  insertedWindowDims := [0]
  scatterDimsToOperandDims := [0]
  indexVectorDim := 1
  wf := scatter_S262144_S4194304x1_S4194304_n_0_0_1_wf
def gather_S262144_S4194304x1_S4194304_n_0_n_n_0_1_1 : GatherDims S262144 S4194304x1 S4194304 where
  offsetDims := []
  collapsedSliceDims := [0]
  operandBatchingDims := []
  startIndicesBatchingDims := []
  startIndexMap := [0]
  indexVectorDim := 1
  sliceSizes := ![1]
  wf := gather_S262144_S4194304x1_S4194304_n_0_n_n_0_1_1_wf
def gather_S262144x50_S4194304x1_S4194304x50_1_0_n_n_0_1_150 : GatherDims S262144x50 S4194304x1 S4194304x50 where
  offsetDims := [1]
  collapsedSliceDims := [0]
  operandBatchingDims := []
  startIndicesBatchingDims := []
  startIndexMap := [0]
  indexVectorDim := 1
  sliceSizes := ![1, 50]
  wf := gather_S262144x50_S4194304x1_S4194304x50_1_0_n_n_0_1_150_wf
def scatter_S262144x50_S4194304x1_S4194304x50_1_0_0_1 : ScatterDims S262144x50 S4194304x1 S4194304x50 where
  updateWindowDims := [1]
  insertedWindowDims := [0]
  scatterDimsToOperandDims := [0]
  indexVectorDim := 1
  wf := scatter_S262144x50_S4194304x1_S4194304x50_1_0_0_1_wf
def dot_S262144x50_S50x32_S262144x32_1_0_0_1_n_n : DotDims S262144x50 S50x32 S262144x32 where
  lhsContracting := [1]
  rhsContracting := [0]
  lhsNonContracting := [0]
  rhsNonContracting := [1]
  lhsBatch := []
  rhsBatch := []
  wf := dot_S262144x50_S50x32_S262144x32_1_0_0_1_n_n_wf
def gather_S262144x32_S4194304x1_S4194304x32_1_0_n_n_0_1_132 : GatherDims S262144x32 S4194304x1 S4194304x32 where
  offsetDims := [1]
  collapsedSliceDims := [0]
  operandBatchingDims := []
  startIndicesBatchingDims := []
  startIndexMap := [0]
  indexVectorDim := 1
  sliceSizes := ![1, 32]
  wf := gather_S262144x32_S4194304x1_S4194304x32_1_0_n_n_0_1_132_wf
def scatter_S262144x32_S4194304x1_S4194304x32_1_0_0_1 : ScatterDims S262144x32 S4194304x1 S4194304x32 where
  updateWindowDims := [1]
  insertedWindowDims := [0]
  scatterDimsToOperandDims := [0]
  indexVectorDim := 1
  wf := scatter_S262144x32_S4194304x1_S4194304x32_1_0_0_1_wf
def dot_S262144x32_S32x32_S262144x32_1_0_0_1_n_n : DotDims S262144x32 S32x32 S262144x32 where
  lhsContracting := [1]
  rhsContracting := [0]
  lhsNonContracting := [0]
  rhsNonContracting := [1]
  lhsBatch := []
  rhsBatch := []
  wf := dot_S262144x32_S32x32_S262144x32_1_0_0_1_n_n_wf
def dot_S262144x32_S32x16_S262144x16_1_0_0_1_n_n : DotDims S262144x32 S32x16 S262144x16 where
  lhsContracting := [1]
  rhsContracting := [0]
  lhsNonContracting := [0]
  rhsNonContracting := [1]
  lhsBatch := []
  rhsBatch := []
  wf := dot_S262144x32_S32x16_S262144x16_1_0_0_1_n_n_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KernelRun.lean ====
/-
  The idealized kernel's run, with its result named. Every weakly fair execution of the program from a memory with
  zero counters ends, nothing faulting, with the result buffer at what the fold through the program's segments
  leaves there (the last region's output array after all its write-backs) and with every argument as launched.
  It is the frame's own argument — the launch over the ten segments, the last thread state read against the final
  memory — kept for one more buffer: the result, which the frame forgets.
-/
import proofs.«101510_j16277926052611_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v80) = W10 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v80 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c)⟩)

end Cert.KernelIdeal.ResultRun

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«101510_j16277926052611_2_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.Layer0.lean ====
/-
  Dense layer 0 of the idealized kernel, as one function of whole arrays.

  The layer's output array has 262144 rows and 32 columns. The kernel computes it in 32 blocks of 8192 rows: at
  block t it loads rows 8192·t … 8192·t + 8191 of the node features and of the propagated features, the two
  50×32 weight matrices and the 1×32 bias row whole, and stores
      max( x·W0 + tx·W1 + bias, 0 )
  for those rows. Each of these operations acts on every row by itself, so the stored block is the same block of
  rows of the layer applied to the whole arrays (`layer` below, written with the host's operations). The blocks
  tile the output array, so after the last write-back the array holds `layer` of the arrays the region found.
-/
import proofs.«101510_j16277926052611_2_alg».proof.Proof.Gen.KernelIdeal.Frame
import proofs.«101510_j16277926052611_2_alg».proof.Proof.Gen.ReferenceIdeal.Read
import proofs.«101510_j16277926052611_2_alg».proof.Proof.LibDenseLayer

set_option maxRecDepth 16384

noncomputable section

namespace Cert.KernelIdeal.Layer0

open Cert.KernelIdeal Cert.KernelIdeal.Gen
open Idealize.ShloMosaic Idealize.ShloMosaic.TcCoe Idealize.ShloMosaic.ValueIdx Cert.Lib.DenseLayer
open Idealize.ShloMosaic.Pipeline (Dat Cfg Window)

/-- The block's product record is a plain rows-by-columns contraction. -/
theorem plainBlk : Plain (M := 8192) (K := 50) (N := 32) dot_S8192x50_S50x32_S8192x32_1_0_0_1_n_n :=
  ⟨rfl, rfl,
   fun i q => by
    unfold DotDims.lhsIdx
    rw [dif_neg (show ¬(0 : Fin S8192x50.rank) ∈ dot_S8192x50_S50x32_S8192x32_1_0_0_1_n_n.lhsBatch by decide), dif_pos (show (0 : Fin S8192x50.rank) ∈ dot_S8192x50_S50x32_S8192x32_1_0_0_1_n_n.lhsNonContracting by decide)]
    rfl,
   fun i q => dot_S8192x50_S50x32_S8192x32_1_0_0_1_n_n.lhsIdx_val_of_single rfl i q,
   fun i q => dot_S8192x50_S50x32_S8192x32_1_0_0_1_n_n.rhsIdx_val_of_single rfl i q,
   fun i q => by
    unfold DotDims.rhsIdx
    rw [dif_neg (show ¬(1 : Fin S50x32.rank) ∈ dot_S8192x50_S50x32_S8192x32_1_0_0_1_n_n.rhsBatch by decide), dif_pos (show (1 : Fin S50x32.rank) ∈ dot_S8192x50_S50x32_S8192x32_1_0_0_1_n_n.rhsNonContracting by decide)]
    rfl⟩

/-- So is the whole-array product record of the host. -/
theorem plainRef : Plain (M := 262144) (K := 50) (N := 32) Cert.ReferenceIdeal.dot_S262144x50_S50x32_S262144x32_1_0_0_1_n_n :=
  ⟨rfl, rfl, Cert.ReferenceIdeal.Read.lhs_main_v41_0, Cert.ReferenceIdeal.Read.lhs_main_v41_1, Cert.ReferenceIdeal.Read.rhs_main_v41_0, Cert.ReferenceIdeal.Read.rhs_main_v41_1⟩

/-- The layer on whole arrays, in the host's operations: max(X·W0 + TX·W1 + bias row, 0). -/
def layer (X TX : FVec Ideal S262144x50 .f32) (W0 W1 : FVec Ideal S50x32 .f32) (B : FVec Ideal S1x32 .f32) : FVec Ideal S262144x32 .f32 :=
  maximumf (addf (addf (Host.dotGeneral Cert.ReferenceIdeal.dot_S262144x50_S50x32_S262144x32_1_0_0_1_n_n none X W0) (Host.dotGeneral Cert.ReferenceIdeal.dot_S262144x50_S50x32_S262144x32_1_0_0_1_n_n none TX W1))
      (broadcastInDim S262144x32 ![0, 1] Cert.ReferenceIdeal.Facts₀.bcast_S1x32_S262144x32_0_1 B))
    (broadcastInDim S262144x32 ![] Cert.ReferenceIdeal.Facts₀.bcast_S_S262144x32 (constant S_ .f32 0x00000000#32))

/-- The host's zero matrix holds the zero word at every entry. -/
theorem zero_apply (i : S262144x32.Idx) :
    broadcastInDim S262144x32 ![] Cert.ReferenceIdeal.Facts₀.bcast_S_S262144x32 (constant (F := Ideal) S_ .f32 0x00000000#32) i
      = Ideal.ofBits .f32 0x00000000#32 :=
  broadcastInDim_apply (s := S_) (t := S262144x32) ![] Cert.ReferenceIdeal.Facts₀.bcast_S_S262144x32
    (constant (F := Ideal) S_ .f32 0x00000000#32) i (fun a : Fin 0 => a.elim0) (fun a : Fin 0 => a.elim0)

/-- The body's stored value on a block of rows is that block of rows of the layer. -/
theorem pay_rowBlk {off : Nat} {x0 x1 : FVec Ideal S8192x50 .f32} {X TX : FVec Ideal S262144x50 .f32}
    (h0 : RowBlk off x0 X) (h1 : RowBlk off x1 TX) (w0 w1 : FVec Ideal S50x32 .f32) (b : FVec Ideal S1x32 .f32) :
    RowBlk off (k0_pay1 (F := Ideal) x0 x1 w0 w1 b) (layer X TX w0 w1 b) := by
  unfold k0_pay1 layer
  simp only [shapeCast_self]
  exact (((h0.matmul plainBlk plainRef w0 _ _).add (h1.matmul plainBlk plainRef w1 _ _)).add (RowBlk.bias b _ _)).max
    (RowBlk.const (Ideal.ofBits .f32 0x00000000#32) (fun _ => rfl)
      zero_apply)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A row-tiled input window's block at point t is the block of rows of its array that starts at row 8192·t. -/
theorem rows0 (c : Dev nD) (t : Fin cfg0.N) :
    RowBlk (M := 262144) (8192 * t.val) (iblk0 V c 0 t : FVec Ideal S8192x50 .f32) (V c main_arg0) := fun r hr q => by
  obtain ⟨e00, e01, -⟩ := idx_facts t
  show V c main_arg0 (((cfg0.win 0).blk t).view.emb (ix2 r q)) = V c main_arg0 (ix2 ⟨8192 * t.val + r.val, hr⟩ q)
  refine congrArg _ (funext fun a => Fin.ext ?_)
  match a with
  | ⟨0, _⟩ => show win0_0.index t (0 : Fin 2) * 8192 + 1 * r.val = 8192 * t.val + r.val; omega
  | ⟨1, _⟩ => show win0_0.index t (1 : Fin 2) * 50 + 1 * q.val = q.val; omega

theorem rows1 (c : Dev nD) (t : Fin cfg0.N) :
    RowBlk (M := 262144) (8192 * t.val) (iblk0 V c 1 t : FVec Ideal S8192x50 .f32) (V c main_v40) := fun r hr q => by
  obtain ⟨-, -, e10, e11, -⟩ := idx_facts t
  show V c main_v40 (((cfg0.win 1).blk t).view.emb (ix2 r q)) = V c main_v40 (ix2 ⟨8192 * t.val + r.val, hr⟩ q)
  refine congrArg _ (funext fun a => Fin.ext ?_)
  match a with
  | ⟨0, _⟩ => show win0_1.index t (0 : Fin 2) * 8192 + 1 * r.val = 8192 * t.val + r.val; omega
  | ⟨1, _⟩ => show win0_1.index t (1 : Fin 2) * 50 + 1 * q.val = q.val; omega

/-- A window whose one block is its whole array: the block is the array. -/
theorem whole2 (c : Dev nD) (t : Fin cfg0.N) : (iblk0 V c 2 t : FVec Ideal S50x32 .f32) = V c main_arg3 := by
  obtain ⟨-, -, -, -, e20, e21, -⟩ := idx_facts t
  funext y
  show V c main_arg3 (((cfg0.win 2).blk t).view.emb y) = V c main_arg3 y
  refine congrArg _ (funext fun a => Fin.ext ?_)
  match a with
  | ⟨0, _⟩ => show win0_2.index t (0 : Fin 2) * 50 + 1 * (y 0).val = (y 0).val; omega
  | ⟨1, _⟩ => show win0_2.index t (1 : Fin 2) * 32 + 1 * (y 1).val = (y 1).val; omega

theorem whole3 (c : Dev nD) (t : Fin cfg0.N) : (iblk0 V c 3 t : FVec Ideal S50x32 .f32) = V c main_arg4 := by
  obtain ⟨-, -, -, -, -, -, e30, e31, -⟩ := idx_facts t
  funext y
  show V c main_arg4 (((cfg0.win 3).blk t).view.emb y) = V c main_arg4 y
  refine congrArg _ (funext fun a => Fin.ext ?_)
  match a with
  | ⟨0, _⟩ => show win0_3.index t (0 : Fin 2) * 50 + 1 * (y 0).val = (y 0).val; omega
  | ⟨1, _⟩ => show win0_3.index t (1 : Fin 2) * 32 + 1 * (y 1).val = (y 1).val; omega

theorem whole4 (c : Dev nD) (t : Fin cfg0.N) : (iblk0 V c 4 t : FVec Ideal S1x32 .f32) = V c main_v41 := by
  obtain ⟨-, -, -, -, -, -, -, -, e40, e41, -⟩ := idx_facts t
  funext y
  show V c main_v41 (((cfg0.win 4).blk t).view.emb y) = V c main_v41 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- What point t writes back is block t of the layer of the arrays the region found. -/
theorem flushed_eq (c : Dev nD) (t : Fin cfg0.N) :
    (dat0 V c).flushed 5 t = ((cfg0.win 5).blk t).view.read (Elt Ideal)
      (layer (V c main_arg0) (V c main_v40) (V c main_arg3) (V c main_arg4) (V c main_v41)) := by
  show (cfg0.win 5).cut (grid0.coords t) ((dat0 V c).after 5 t) = _
  rw [after0_5]
  unfold out0_5
  rw [View.canon_unit_zero hz]
  simp only [View.ld_unit_zero (S := S8192x50) hz, View.ld_unit_zero (S := S50x32) hz, View.ld_unit_zero (S := S1x32) hz]
  rw [whole2 V c t, whole3 V c t, whole4 V c t]
  obtain ⟨-, -, -, -, -, -, -, -, -, -, e50, e51⟩ := idx_facts t
  have hN : cfg0.N = 32 := N_0
  funext j
  obtain ⟨r, q, rfl⟩ : ∃ (r : Fin 8192) (q : Fin 32), j = ix2 r q := ⟨j 0, j 1, eq_ix2 j⟩
  have ht : t.val < 32 := hN ▸ t.isLt
  have hr : 8192 * t.val + r.val < 262144 := by have := r.isLt; omega
  have hemb : ((cfg0.win 5).blk t).view.emb (ix2 r q) = ix2 (⟨8192 * t.val + r.val, hr⟩ : Fin 262144) q := by
    funext a; apply Fin.ext
    match a with
    | ⟨0, _⟩ => show win0_5.index t (0 : Fin 2) * 8192 + 1 * r.val = 8192 * t.val + r.val; omega
    | ⟨1, _⟩ => show win0_5.index t (1 : Fin 2) * 32 + 1 * q.val = q.val; omega
  show k0_pay1 (iblk0 V c 0 t) (iblk0 V c 1 t) (V c main_arg3) (V c main_arg4) (V c main_v41) (ix2 r q)
    = layer (V c main_arg0) (V c main_v40) (V c main_arg3) (V c main_arg4) (V c main_v41) (((cfg0.win 5).blk t).view.emb (ix2 r q))
  rw [hemb]
  exact pay_rowBlk (rows0 V c t) (rows1 V c t) (V c main_arg3) (V c main_arg4) (V c main_v41) r hr q

/-- An index of the output array is in point t's block iff each coordinate is in the block's range on its axis. -/
theorem mem_blk (t : Fin cfg0.N) (i : S262144x32.Idx) :
    i ∈ ((cfg0.win 5).blk t).view.set ↔ ∀ a : Fin 2, win0_5.index t a * S8192x32.size a ≤ (i a).val ∧ (i a).val < win0_5.index t a * S8192x32.size a + S8192x32.size a := by
  show i ∈ ((View.whole main_v42).slice (win0_5.rect t)).set ↔ _
  rw [View.set_slice_whole, Rect.mem_set_unit]
  exact Iff.rfl

/-- The 32 blocks tile the output array: row i is in block i / 8192. -/
theorem cover (i : S262144x32.Idx) : ∃ t : Fin cfg0.N, (cfg0.win 5).flush t = true ∧ i ∈ ((cfg0.win 5).blk t).view.set := by
  have hi0 : (i 0).val < 262144 := (i 0).isLt
  have hi1 : (i 1).val < 32 := (i 1).isLt
  have hN : cfg0.N = 32 := N_0
  have hlt : (i 0).val / 8192 < cfg0.N := by omega
  obtain ⟨-, -, -, -, -, -, -, -, -, -, e50, e51⟩ := idx_facts ⟨(i 0).val / 8192, hlt⟩
  refine ⟨⟨(i 0).val / 8192, hlt⟩, flush0_5 _, ?_⟩
  rw [mem_blk]
  intro a
  match a with
  | ⟨0, _⟩ =>
    show win0_5.index ⟨(i 0).val / 8192, hlt⟩ (0 : Fin 2) * 8192 ≤ (i 0).val ∧ (i 0).val < win0_5.index ⟨(i 0).val / 8192, hlt⟩ (0 : Fin 2) * 8192 + 8192
    rw [e50]; show (i 0).val / 8192 * 8192 ≤ (i 0).val ∧ (i 0).val < (i 0).val / 8192 * 8192 + 8192; omega
  | ⟨1, _⟩ =>
    show win0_5.index ⟨(i 0).val / 8192, hlt⟩ (1 : Fin 2) * 32 ≤ (i 1).val ∧ (i 1).val < win0_5.index ⟨(i 0).val / 8192, hlt⟩ (1 : Fin 2) * 32 + 32
    rw [e51]; omega

/-- THE LAYER'S OUTPUT ARRAY after the region: the layer of the arrays the region found. -/
theorem value (c : Dev nD) :
    (dat0 V c).arrAt 5 cfg0.N = layer (V c main_arg0) (V c main_v40) (V c main_arg3) (V c main_arg4) (V c main_v41) :=
  (dat0 V c).arrAt_eq_of_cover 5 _ (fun t _ => flushed_eq V c t) cover

end Cert.KernelIdeal.Layer0

end
-- ==== Proof.Layer1.lean ====
/-
  Dense layer 1 of the idealized kernel, as one function of whole arrays.

  The layer's output array has 262144 rows and 32 columns. The kernel computes it in 32 blocks of 8192 rows: at
  block t it loads rows 8192·t … 8192·t + 8191 of the node features and of the propagated features, the two
  32×32 weight matrices and the 1×32 bias row whole, and stores
      max( x·W0 + tx·W1 + bias, 0 )
  for those rows. Each of these operations acts on every row by itself, so the stored block is the same block of
  rows of the layer applied to the whole arrays (`layer` below, written with the host's operations). The blocks
  tile the output array, so after the last write-back the array holds `layer` of the arrays the region found.
-/
import proofs.«101510_j16277926052611_2_alg».proof.Proof.Gen.KernelIdeal.Frame
import proofs.«101510_j16277926052611_2_alg».proof.Proof.Gen.ReferenceIdeal.Read
import proofs.«101510_j16277926052611_2_alg».proof.Proof.LibDenseLayer

set_option maxRecDepth 16384

noncomputable section

namespace Cert.KernelIdeal.Layer1

open Cert.KernelIdeal Cert.KernelIdeal.Gen
open Idealize.ShloMosaic Idealize.ShloMosaic.TcCoe Idealize.ShloMosaic.ValueIdx Cert.Lib.DenseLayer
open Idealize.ShloMosaic.Pipeline (Dat Cfg Window)

/-- The block's product record is a plain rows-by-columns contraction. -/
theorem plainBlk : Plain (M := 8192) (K := 32) (N := 32) dot_S8192x32_S32x32_S8192x32_1_0_0_1_n_n :=
  ⟨rfl, rfl,
   fun i q => by
    unfold DotDims.lhsIdx
    rw [dif_neg (show ¬(0 : Fin S8192x32.rank) ∈ dot_S8192x32_S32x32_S8192x32_1_0_0_1_n_n.lhsBatch by decide), dif_pos (show (0 : Fin S8192x32.rank) ∈ dot_S8192x32_S32x32_S8192x32_1_0_0_1_n_n.lhsNonContracting by decide)]
    rfl,
   fun i q => dot_S8192x32_S32x32_S8192x32_1_0_0_1_n_n.lhsIdx_val_of_single rfl i q,
   fun i q => dot_S8192x32_S32x32_S8192x32_1_0_0_1_n_n.rhsIdx_val_of_single rfl i q,
   fun i q => by
    unfold DotDims.rhsIdx
    rw [dif_neg (show ¬(1 : Fin S32x32.rank) ∈ dot_S8192x32_S32x32_S8192x32_1_0_0_1_n_n.rhsBatch by decide), dif_pos (show (1 : Fin S32x32.rank) ∈ dot_S8192x32_S32x32_S8192x32_1_0_0_1_n_n.rhsNonContracting by decide)]
    rfl⟩

/-- So is the whole-array product record of the host. -/
theorem plainRef : Plain (M := 262144) (K := 32) (N := 32) Cert.ReferenceIdeal.dot_S262144x32_S32x32_S262144x32_1_0_0_1_n_n :=
  ⟨rfl, rfl, Cert.ReferenceIdeal.Read.lhs_main_v61_0, Cert.ReferenceIdeal.Read.lhs_main_v61_1, Cert.ReferenceIdeal.Read.rhs_main_v61_0, Cert.ReferenceIdeal.Read.rhs_main_v61_1⟩

/-- The layer on whole arrays, in the host's operations: max(X·W0 + TX·W1 + bias row, 0). -/
def layer (X TX : FVec Ideal S262144x32 .f32) (W0 W1 : FVec Ideal S32x32 .f32) (B : FVec Ideal S1x32 .f32) : FVec Ideal S262144x32 .f32 :=
  maximumf (addf (addf (Host.dotGeneral Cert.ReferenceIdeal.dot_S262144x32_S32x32_S262144x32_1_0_0_1_n_n none X W0) (Host.dotGeneral Cert.ReferenceIdeal.dot_S262144x32_S32x32_S262144x32_1_0_0_1_n_n none TX W1))
      (broadcastInDim S262144x32 ![0, 1] Cert.ReferenceIdeal.Facts₀.bcast_S1x32_S262144x32_0_1 B))
    (broadcastInDim S262144x32 ![] Cert.ReferenceIdeal.Facts₀.bcast_S_S262144x32 (constant S_ .f32 0x00000000#32))

/-- The host's zero matrix holds the zero word at every entry. -/
theorem zero_apply (i : S262144x32.Idx) :
    broadcastInDim S262144x32 ![] Cert.ReferenceIdeal.Facts₀.bcast_S_S262144x32 (constant (F := Ideal) S_ .f32 0x00000000#32) i
      = Ideal.ofBits .f32 0x00000000#32 :=
  broadcastInDim_apply (s := S_) (t := S262144x32) ![] Cert.ReferenceIdeal.Facts₀.bcast_S_S262144x32
    (constant (F := Ideal) S_ .f32 0x00000000#32) i (fun a : Fin 0 => a.elim0) (fun a : Fin 0 => a.elim0)

/-- The body's stored value on a block of rows is that block of rows of the layer. -/
theorem pay_rowBlk {off : Nat} {x0 x1 : FVec Ideal S8192x32 .f32} {X TX : FVec Ideal S262144x32 .f32}
    (h0 : RowBlk off x0 X) (h1 : RowBlk off x1 TX) (w0 w1 : FVec Ideal S32x32 .f32) (b : FVec Ideal S1x32 .f32) :
    RowBlk off (k1_pay1 (F := Ideal) x0 x1 w0 w1 b) (layer X TX w0 w1 b) := by
  unfold k1_pay1 layer
  simp only [shapeCast_self]
  exact (((h0.matmul plainBlk plainRef w0 _ _).add (h1.matmul plainBlk plainRef w1 _ _)).add (RowBlk.bias b _ _)).max
    (RowBlk.const (Ideal.ofBits .f32 0x00000000#32) (fun _ => rfl)
      zero_apply)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A row-tiled input window's block at point t is the block of rows of its array that starts at row 8192·t. -/
theorem rows0 (c : Dev nD) (t : Fin cfg1.N) :
    RowBlk (M := 262144) (8192 * t.val) (iblk1 V c 0 t : FVec Ideal S8192x32 .f32) (V c main_v42) := fun r hr q => by
  obtain ⟨e00, e01, -⟩ := idx_facts t
  show V c main_v42 (((cfg1.win 0).blk t).view.emb (ix2 r q)) = V c main_v42 (ix2 ⟨8192 * t.val + r.val, hr⟩ q)
  refine congrArg _ (funext fun a => Fin.ext ?_)
  match a with
  | ⟨0, _⟩ => show win1_0.index t (0 : Fin 2) * 8192 + 1 * r.val = 8192 * t.val + r.val; omega
  | ⟨1, _⟩ => show win1_0.index t (1 : Fin 2) * 32 + 1 * q.val = q.val; omega

theorem rows1 (c : Dev nD) (t : Fin cfg1.N) :
    RowBlk (M := 262144) (8192 * t.val) (iblk1 V c 1 t : FVec Ideal S8192x32 .f32) (V c main_v55) := fun r hr q => by
  obtain ⟨-, -, e10, e11, -⟩ := idx_facts t
  show V c main_v55 (((cfg1.win 1).blk t).view.emb (ix2 r q)) = V c main_v55 (ix2 ⟨8192 * t.val + r.val, hr⟩ q)
  refine congrArg _ (funext fun a => Fin.ext ?_)
  match a with
  | ⟨0, _⟩ => show win1_1.index t (0 : Fin 2) * 8192 + 1 * r.val = 8192 * t.val + r.val; omega
  | ⟨1, _⟩ => show win1_1.index t (1 : Fin 2) * 32 + 1 * q.val = q.val; omega

/-- A window whose one block is its whole array: the block is the array. -/
theorem whole2 (c : Dev nD) (t : Fin cfg1.N) : (iblk1 V c 2 t : FVec Ideal S32x32 .f32) = V c main_arg6 := by
  obtain ⟨-, -, -, -, e20, e21, -⟩ := idx_facts t
  funext y
  show V c main_arg6 (((cfg1.win 2).blk t).view.emb y) = V c main_arg6 y
  refine congrArg _ (funext fun a => Fin.ext ?_)
  match a with
  | ⟨0, _⟩ => show win1_2.index t (0 : Fin 2) * 32 + 1 * (y 0).val = (y 0).val; omega
  | ⟨1, _⟩ => show win1_2.index t (1 : Fin 2) * 32 + 1 * (y 1).val = (y 1).val; omega

theorem whole3 (c : Dev nD) (t : Fin cfg1.N) : (iblk1 V c 3 t : FVec Ideal S32x32 .f32) = V c main_arg7 := by
  obtain ⟨-, -, -, -, -, -, e30, e31, -⟩ := idx_facts t
  funext y
  show V c main_arg7 (((cfg1.win 3).blk t).view.emb y) = V c main_arg7 y
  refine congrArg _ (funext fun a => Fin.ext ?_)
  match a with
  | ⟨0, _⟩ => show win1_3.index t (0 : Fin 2) * 32 + 1 * (y 0).val = (y 0).val; omega
  | ⟨1, _⟩ => show win1_3.index t (1 : Fin 2) * 32 + 1 * (y 1).val = (y 1).val; omega

theorem whole4 (c : Dev nD) (t : Fin cfg1.N) : (iblk1 V c 4 t : FVec Ideal S1x32 .f32) = V c main_v56 := by
  obtain ⟨-, -, -, -, -, -, -, -, e40, e41, -⟩ := idx_facts t
  funext y
  show V c main_v56 (((cfg1.win 4).blk t).view.emb y) = V c main_v56 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 32 + 1 * (y 1).val = (y 1).val; omega

/-- What point t writes back is block t of the layer of the arrays the region found. -/
theorem flushed_eq (c : Dev nD) (t : Fin cfg1.N) :
    (dat1 V c).flushed 5 t = ((cfg1.win 5).blk t).view.read (Elt Ideal)
      (layer (V c main_v42) (V c main_v55) (V c main_arg6) (V c main_arg7) (V c main_v56)) := by
  show (cfg1.win 5).cut (grid1.coords t) ((dat1 V c).after 5 t) = _
  rw [after1_5]
  unfold out1_5
  rw [View.canon_unit_zero hz]
  simp only [View.ld_unit_zero (S := S8192x32) hz, View.ld_unit_zero (S := S32x32) hz, View.ld_unit_zero (S := S1x32) hz]
  rw [whole2 V c t, whole3 V c t, whole4 V c t]
  obtain ⟨-, -, -, -, -, -, -, -, -, -, e50, e51⟩ := idx_facts t
  have hN : cfg1.N = 32 := N_1
  funext j
  obtain ⟨r, q, rfl⟩ : ∃ (r : Fin 8192) (q : Fin 32), j = ix2 r q := ⟨j 0, j 1, eq_ix2 j⟩
  have ht : t.val < 32 := hN ▸ t.isLt
  have hr : 8192 * t.val + r.val < 262144 := by have := r.isLt; omega
  have hemb : ((cfg1.win 5).blk t).view.emb (ix2 r q) = ix2 (⟨8192 * t.val + r.val, hr⟩ : Fin 262144) q := by
    funext a; apply Fin.ext
    match a with
    | ⟨0, _⟩ => show win1_5.index t (0 : Fin 2) * 8192 + 1 * r.val = 8192 * t.val + r.val; omega
    | ⟨1, _⟩ => show win1_5.index t (1 : Fin 2) * 32 + 1 * q.val = q.val; omega
  show k1_pay1 (iblk1 V c 0 t) (iblk1 V c 1 t) (V c main_arg6) (V c main_arg7) (V c main_v56) (ix2 r q)
    = layer (V c main_v42) (V c main_v55) (V c main_arg6) (V c main_arg7) (V c main_v56) (((cfg1.win 5).blk t).view.emb (ix2 r q))
  rw [hemb]
  exact pay_rowBlk (rows0 V c t) (rows1 V c t) (V c main_arg6) (V c main_arg7) (V c main_v56) r hr q

/-- An index of the output array is in point t's block iff each coordinate is in the block's range on its axis. -/
theorem mem_blk (t : Fin cfg1.N) (i : S262144x32.Idx) :
    i ∈ ((cfg1.win 5).blk t).view.set ↔ ∀ a : Fin 2, win1_5.index t a * S8192x32.size a ≤ (i a).val ∧ (i a).val < win1_5.index t a * S8192x32.size a + S8192x32.size a := by
  show i ∈ ((View.whole main_v57).slice (win1_5.rect t)).set ↔ _
  rw [View.set_slice_whole, Rect.mem_set_unit]
  exact Iff.rfl

/-- The 32 blocks tile the output array: row i is in block i / 8192. -/
theorem cover (i : S262144x32.Idx) : ∃ t : Fin cfg1.N, (cfg1.win 5).flush t = true ∧ i ∈ ((cfg1.win 5).blk t).view.set := by
  have hi0 : (i 0).val < 262144 := (i 0).isLt
  have hi1 : (i 1).val < 32 := (i 1).isLt
  have hN : cfg1.N = 32 := N_1
  have hlt : (i 0).val / 8192 < cfg1.N := by omega
  obtain ⟨-, -, -, -, -, -, -, -, -, -, e50, e51⟩ := idx_facts ⟨(i 0).val / 8192, hlt⟩
  refine ⟨⟨(i 0).val / 8192, hlt⟩, flush1_5 _, ?_⟩
  rw [mem_blk]
  intro a
  match a with
  | ⟨0, _⟩ =>
    show win1_5.index ⟨(i 0).val / 8192, hlt⟩ (0 : Fin 2) * 8192 ≤ (i 0).val ∧ (i 0).val < win1_5.index ⟨(i 0).val / 8192, hlt⟩ (0 : Fin 2) * 8192 + 8192
    rw [e50]; show (i 0).val / 8192 * 8192 ≤ (i 0).val ∧ (i 0).val < (i 0).val / 8192 * 8192 + 8192; omega
  | ⟨1, _⟩ =>
    show win1_5.index ⟨(i 0).val / 8192, hlt⟩ (1 : Fin 2) * 32 ≤ (i 1).val ∧ (i 1).val < win1_5.index ⟨(i 0).val / 8192, hlt⟩ (1 : Fin 2) * 32 + 32
    rw [e51]; omega

/-- THE LAYER'S OUTPUT ARRAY after the region: the layer of the arrays the region found. -/
theorem value (c : Dev nD) :
    (dat1 V c).arrAt 5 cfg1.N = layer (V c main_v42) (V c main_v55) (V c main_arg6) (V c main_arg7) (V c main_v56) :=
  (dat1 V c).arrAt_eq_of_cover 5 _ (fun t _ => flushed_eq V c t) cover

end Cert.KernelIdeal.Layer1

end
-- ==== Proof.Layer2.lean ====
/-
  Dense layer 2 of the idealized kernel, as one function of whole arrays.

  The layer's output array has 262144 rows and 16 columns. The kernel computes it in 32 blocks of 8192 rows: at
  block t it loads rows 8192·t … 8192·t + 8191 of the node features and of the propagated features, the two
  32×16 weight matrices and the 1×16 bias row whole, and stores
      max( x·W0 + tx·W1 + bias, 0 )
  for those rows. Each of these operations acts on every row by itself, so the stored block is the same block of
  rows of the layer applied to the whole arrays (`layer` below, written with the host's operations). The blocks
  tile the output array, so after the last write-back the array holds `layer` of the arrays the region found.
-/
import proofs.«101510_j16277926052611_2_alg».proof.Proof.Gen.KernelIdeal.Frame
import proofs.«101510_j16277926052611_2_alg».proof.Proof.Gen.ReferenceIdeal.Read
import proofs.«101510_j16277926052611_2_alg».proof.Proof.LibDenseLayer

set_option maxRecDepth 16384

noncomputable section

namespace Cert.KernelIdeal.Layer2

open Cert.KernelIdeal Cert.KernelIdeal.Gen
open Idealize.ShloMosaic Idealize.ShloMosaic.TcCoe Idealize.ShloMosaic.ValueIdx Cert.Lib.DenseLayer
open Idealize.ShloMosaic.Pipeline (Dat Cfg Window)

/-- The block's product record is a plain rows-by-columns contraction. -/
theorem plainBlk : Plain (M := 8192) (K := 32) (N := 16) dot_S8192x32_S32x16_S8192x16_1_0_0_1_n_n :=
  ⟨rfl, rfl,
   fun i q => by
    unfold DotDims.lhsIdx
    rw [dif_neg (show ¬(0 : Fin S8192x32.rank) ∈ dot_S8192x32_S32x16_S8192x16_1_0_0_1_n_n.lhsBatch by decide), dif_pos (show (0 : Fin S8192x32.rank) ∈ dot_S8192x32_S32x16_S8192x16_1_0_0_1_n_n.lhsNonContracting by decide)]
    rfl,
   fun i q => dot_S8192x32_S32x16_S8192x16_1_0_0_1_n_n.lhsIdx_val_of_single rfl i q,
   fun i q => dot_S8192x32_S32x16_S8192x16_1_0_0_1_n_n.rhsIdx_val_of_single rfl i q,
   fun i q => by
    unfold DotDims.rhsIdx
    rw [dif_neg (show ¬(1 : Fin S32x16.rank) ∈ dot_S8192x32_S32x16_S8192x16_1_0_0_1_n_n.rhsBatch by decide), dif_pos (show (1 : Fin S32x16.rank) ∈ dot_S8192x32_S32x16_S8192x16_1_0_0_1_n_n.rhsNonContracting by decide)]
    rfl⟩

/-- So is the whole-array product record of the host. -/
theorem plainRef : Plain (M := 262144) (K := 32) (N := 16) Cert.ReferenceIdeal.dot_S262144x32_S32x16_S262144x16_1_0_0_1_n_n :=
  ⟨rfl, rfl, Cert.ReferenceIdeal.Read.lhs_main_v81_0, Cert.ReferenceIdeal.Read.lhs_main_v81_1, Cert.ReferenceIdeal.Read.rhs_main_v81_0, Cert.ReferenceIdeal.Read.rhs_main_v81_1⟩

/-- The layer on whole arrays, in the host's operations: max(X·W0 + TX·W1 + bias row, 0). -/
def layer (X TX : FVec Ideal S262144x32 .f32) (W0 W1 : FVec Ideal S32x16 .f32) (B : FVec Ideal S1x16 .f32) : FVec Ideal S262144x16 .f32 :=
  maximumf (addf (addf (Host.dotGeneral Cert.ReferenceIdeal.dot_S262144x32_S32x16_S262144x16_1_0_0_1_n_n none X W0) (Host.dotGeneral Cert.ReferenceIdeal.dot_S262144x32_S32x16_S262144x16_1_0_0_1_n_n none TX W1))
      (broadcastInDim S262144x16 ![0, 1] Cert.ReferenceIdeal.Facts₀.bcast_S1x16_S262144x16_0_1 B))
    (broadcastInDim S262144x16 ![] Cert.ReferenceIdeal.Facts₀.bcast_S_S262144x16 (constant S_ .f32 0x00000000#32))

/-- The host's zero matrix holds the zero word at every entry. -/
theorem zero_apply (i : S262144x16.Idx) :
    broadcastInDim S262144x16 ![] Cert.ReferenceIdeal.Facts₀.bcast_S_S262144x16 (constant (F := Ideal) S_ .f32 0x00000000#32) i
      = Ideal.ofBits .f32 0x00000000#32 :=
  broadcastInDim_apply (s := S_) (t := S262144x16) ![] Cert.ReferenceIdeal.Facts₀.bcast_S_S262144x16
    (constant (F := Ideal) S_ .f32 0x00000000#32) i (fun a : Fin 0 => a.elim0) (fun a : Fin 0 => a.elim0)

/-- The body's stored value on a block of rows is that block of rows of the layer. -/
theorem pay_rowBlk {off : Nat} {x0 x1 : FVec Ideal S8192x32 .f32} {X TX : FVec Ideal S262144x32 .f32}
    (h0 : RowBlk off x0 X) (h1 : RowBlk off x1 TX) (w0 w1 : FVec Ideal S32x16 .f32) (b : FVec Ideal S1x16 .f32) :
    RowBlk off (k2_pay1 (F := Ideal) x0 x1 w0 w1 b) (layer X TX w0 w1 b) := by
  unfold k2_pay1 layer
  simp only [shapeCast_self]
  exact (((h0.matmul plainBlk plainRef w0 _ _).add (h1.matmul plainBlk plainRef w1 _ _)).add (RowBlk.bias b _ _)).max
    (RowBlk.const (Ideal.ofBits .f32 0x00000000#32) (fun _ => rfl)
      zero_apply)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A row-tiled input window's block at point t is the block of rows of its array that starts at row 8192·t. -/
theorem rows0 (c : Dev nD) (t : Fin cfg2.N) :
    RowBlk (M := 262144) (8192 * t.val) (iblk2 V c 0 t : FVec Ideal S8192x32 .f32) (V c main_v57) := fun r hr q => by
  obtain ⟨e00, e01, -⟩ := idx_facts t
  show V c main_v57 (((cfg2.win 0).blk t).view.emb (ix2 r q)) = V c main_v57 (ix2 ⟨8192 * t.val + r.val, hr⟩ q)
  refine congrArg _ (funext fun a => Fin.ext ?_)
  match a with
  | ⟨0, _⟩ => show win2_0.index t (0 : Fin 2) * 8192 + 1 * r.val = 8192 * t.val + r.val; omega
  | ⟨1, _⟩ => show win2_0.index t (1 : Fin 2) * 32 + 1 * q.val = q.val; omega

theorem rows1 (c : Dev nD) (t : Fin cfg2.N) :
    RowBlk (M := 262144) (8192 * t.val) (iblk2 V c 1 t : FVec Ideal S8192x32 .f32) (V c main_v70) := fun r hr q => by
  obtain ⟨-, -, e10, e11, -⟩ := idx_facts t
  show V c main_v70 (((cfg2.win 1).blk t).view.emb (ix2 r q)) = V c main_v70 (ix2 ⟨8192 * t.val + r.val, hr⟩ q)
  refine congrArg _ (funext fun a => Fin.ext ?_)
  match a with
  | ⟨0, _⟩ => show win2_1.index t (0 : Fin 2) * 8192 + 1 * r.val = 8192 * t.val + r.val; omega
  | ⟨1, _⟩ => show win2_1.index t (1 : Fin 2) * 32 + 1 * q.val = q.val; omega

/-- A window whose one block is its whole array: the block is the array. -/
theorem whole2 (c : Dev nD) (t : Fin cfg2.N) : (iblk2 V c 2 t : FVec Ideal S32x16 .f32) = V c main_arg9 := by
  obtain ⟨-, -, -, -, e20, e21, -⟩ := idx_facts t
  funext y
  show V c main_arg9 (((cfg2.win 2).blk t).view.emb y) = V c main_arg9 y
  refine congrArg _ (funext fun a => Fin.ext ?_)
  match a with
  | ⟨0, _⟩ => show win2_2.index t (0 : Fin 2) * 32 + 1 * (y 0).val = (y 0).val; omega
  | ⟨1, _⟩ => show win2_2.index t (1 : Fin 2) * 16 + 1 * (y 1).val = (y 1).val; omega

theorem whole3 (c : Dev nD) (t : Fin cfg2.N) : (iblk2 V c 3 t : FVec Ideal S32x16 .f32) = V c main_arg10 := by
  obtain ⟨-, -, -, -, -, -, e30, e31, -⟩ := idx_facts t
  funext y
  show V c main_arg10 (((cfg2.win 3).blk t).view.emb y) = V c main_arg10 y
  refine congrArg _ (funext fun a => Fin.ext ?_)
  match a with
  | ⟨0, _⟩ => show win2_3.index t (0 : Fin 2) * 32 + 1 * (y 0).val = (y 0).val; omega
  | ⟨1, _⟩ => show win2_3.index t (1 : Fin 2) * 16 + 1 * (y 1).val = (y 1).val; omega

theorem whole4 (c : Dev nD) (t : Fin cfg2.N) : (iblk2 V c 4 t : FVec Ideal S1x16 .f32) = V c main_v71 := by
  obtain ⟨-, -, -, -, -, -, -, -, e40, e41, -⟩ := idx_facts t
  funext y
  show V c main_v71 (((cfg2.win 4).blk t).view.emb y) = V c main_v71 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 16 + 1 * (y 1).val = (y 1).val; omega

/-- What point t writes back is block t of the layer of the arrays the region found. -/
theorem flushed_eq (c : Dev nD) (t : Fin cfg2.N) :
    (dat2 V c).flushed 5 t = ((cfg2.win 5).blk t).view.read (Elt Ideal)
      (layer (V c main_v57) (V c main_v70) (V c main_arg9) (V c main_arg10) (V c main_v71)) := by
  show (cfg2.win 5).cut (grid2.coords t) ((dat2 V c).after 5 t) = _
  rw [after2_5]
  unfold out2_5
  rw [View.canon_unit_zero hz]
  simp only [View.ld_unit_zero (S := S8192x32) hz, View.ld_unit_zero (S := S32x16) hz, View.ld_unit_zero (S := S1x16) hz]
  rw [whole2 V c t, whole3 V c t, whole4 V c t]
  obtain ⟨-, -, -, -, -, -, -, -, -, -, e50, e51⟩ := idx_facts t
  have hN : cfg2.N = 32 := N_2
  funext j
  obtain ⟨r, q, rfl⟩ : ∃ (r : Fin 8192) (q : Fin 16), j = ix2 r q := ⟨j 0, j 1, eq_ix2 j⟩
  have ht : t.val < 32 := hN ▸ t.isLt
  have hr : 8192 * t.val + r.val < 262144 := by have := r.isLt; omega
  have hemb : ((cfg2.win 5).blk t).view.emb (ix2 r q) = ix2 (⟨8192 * t.val + r.val, hr⟩ : Fin 262144) q := by
    funext a; apply Fin.ext
    match a with
    | ⟨0, _⟩ => show win2_5.index t (0 : Fin 2) * 8192 + 1 * r.val = 8192 * t.val + r.val; omega
    | ⟨1, _⟩ => show win2_5.index t (1 : Fin 2) * 16 + 1 * q.val = q.val; omega
  show k2_pay1 (iblk2 V c 0 t) (iblk2 V c 1 t) (V c main_arg9) (V c main_arg10) (V c main_v71) (ix2 r q)
    = layer (V c main_v57) (V c main_v70) (V c main_arg9) (V c main_arg10) (V c main_v71) (((cfg2.win 5).blk t).view.emb (ix2 r q))
  rw [hemb]
  exact pay_rowBlk (rows0 V c t) (rows1 V c t) (V c main_arg9) (V c main_arg10) (V c main_v71) r hr q

/-- An index of the output array is in point t's block iff each coordinate is in the block's range on its axis. -/
theorem mem_blk (t : Fin cfg2.N) (i : S262144x16.Idx) :
    i ∈ ((cfg2.win 5).blk t).view.set ↔ ∀ a : Fin 2, win2_5.index t a * S8192x16.size a ≤ (i a).val ∧ (i a).val < win2_5.index t a * S8192x16.size a + S8192x16.size a := by
  show i ∈ ((View.whole main_v72).slice (win2_5.rect t)).set ↔ _
  rw [View.set_slice_whole, Rect.mem_set_unit]
  exact Iff.rfl

/-- The 32 blocks tile the output array: row i is in block i / 8192. -/
theorem cover (i : S262144x16.Idx) : ∃ t : Fin cfg2.N, (cfg2.win 5).flush t = true ∧ i ∈ ((cfg2.win 5).blk t).view.set := by
  have hi0 : (i 0).val < 262144 := (i 0).isLt
  have hi1 : (i 1).val < 16 := (i 1).isLt
  have hN : cfg2.N = 32 := N_2
  have hlt : (i 0).val / 8192 < cfg2.N := by omega
  obtain ⟨-, -, -, -, -, -, -, -, -, -, e50, e51⟩ := idx_facts ⟨(i 0).val / 8192, hlt⟩
  refine ⟨⟨(i 0).val / 8192, hlt⟩, flush2_5 _, ?_⟩
  rw [mem_blk]
  intro a
  match a with
  | ⟨0, _⟩ =>
    show win2_5.index ⟨(i 0).val / 8192, hlt⟩ (0 : Fin 2) * 8192 ≤ (i 0).val ∧ (i 0).val < win2_5.index ⟨(i 0).val / 8192, hlt⟩ (0 : Fin 2) * 8192 + 8192
    rw [e50]; show (i 0).val / 8192 * 8192 ≤ (i 0).val ∧ (i 0).val < (i 0).val / 8192 * 8192 + 8192; omega
  | ⟨1, _⟩ =>
    show win2_5.index ⟨(i 0).val / 8192, hlt⟩ (1 : Fin 2) * 16 ≤ (i 1).val ∧ (i 1).val < win2_5.index ⟨(i 0).val / 8192, hlt⟩ (1 : Fin 2) * 16 + 16
    rw [e51]; omega

/-- THE LAYER'S OUTPUT ARRAY after the region: the layer of the arrays the region found. -/
theorem value (c : Dev nD) :
    (dat2 V c).arrAt 5 cfg2.N = layer (V c main_v57) (V c main_v70) (V c main_arg9) (V c main_arg10) (V c main_v71) :=
  (dat2 V c).arrAt_eq_of_cover 5 _ (fun t _ => flushed_eq V c t) cover

end Cert.KernelIdeal.Layer2

end
-- ==== Proof.Head.lean ====
/-
  The three-layer head of the idealized kernel, as one function of whole arrays.

  The head maps the 512×8192 matrix of pooled node features to 512×2 scores through three linear layers with
  bias, h ↦ ((h·A1 + b1)·A2 + b2)·A3 + b3, the narrowing casts between them being the identity here. The kernel
  computes it in 4 blocks of 128 rows with the three weight matrices and bias rows loaded whole. Each layer acts on
  every row by itself, so the stored block is the same block of rows of the head applied to the whole arrays
  (`head` below, in the host's operations), and the 4 blocks tile the result.
-/
import proofs.«101510_j16277926052611_2_alg».proof.Proof.Gen.KernelIdeal.Frame
import proofs.«101510_j16277926052611_2_alg».proof.Proof.Gen.ReferenceIdeal.Read
import proofs.«101510_j16277926052611_2_alg».proof.Proof.LibDenseLayer

set_option maxRecDepth 16384

noncomputable section

namespace Cert.KernelIdeal.Head

open Cert.KernelIdeal Cert.KernelIdeal.Gen
open Idealize.ShloMosaic Idealize.ShloMosaic.TcCoe Idealize.ShloMosaic.ValueIdx Cert.Lib.DenseLayer
open Idealize.ShloMosaic.Pipeline (Dat Cfg Window)

/-- The blocks' three product records are plain rows-by-columns contractions. -/
theorem plainBlk1 : Plain (M := 128) (K := 8192) (N := 256) dot_S128x8192_S8192x256_S128x256_1_0_0_1_n_n :=
  ⟨rfl, rfl,
   fun i q => by
    unfold DotDims.lhsIdx
    rw [dif_neg (show ¬(0 : Fin S128x8192.rank) ∈ dot_S128x8192_S8192x256_S128x256_1_0_0_1_n_n.lhsBatch by decide), dif_pos (show (0 : Fin S128x8192.rank) ∈ dot_S128x8192_S8192x256_S128x256_1_0_0_1_n_n.lhsNonContracting by decide)]
    rfl,
   fun i q => dot_S128x8192_S8192x256_S128x256_1_0_0_1_n_n.lhsIdx_val_of_single rfl i q,
   fun i q => dot_S128x8192_S8192x256_S128x256_1_0_0_1_n_n.rhsIdx_val_of_single rfl i q,
   fun i q => by
    unfold DotDims.rhsIdx
    rw [dif_neg (show ¬(1 : Fin S8192x256.rank) ∈ dot_S128x8192_S8192x256_S128x256_1_0_0_1_n_n.rhsBatch by decide), dif_pos (show (1 : Fin S8192x256.rank) ∈ dot_S128x8192_S8192x256_S128x256_1_0_0_1_n_n.rhsNonContracting by decide)]
    rfl⟩
theorem plainBlk2 : Plain (M := 128) (K := 256) (N := 128) dot_S128x256_S256x128_S128x128_1_0_0_1_n_n :=
  ⟨rfl, rfl,
   fun i q => by
    unfold DotDims.lhsIdx
    rw [dif_neg (show ¬(0 : Fin S128x256.rank) ∈ dot_S128x256_S256x128_S128x128_1_0_0_1_n_n.lhsBatch by decide), dif_pos (show (0 : Fin S128x256.rank) ∈ dot_S128x256_S256x128_S128x128_1_0_0_1_n_n.lhsNonContracting by decide)]
    rfl,
   fun i q => dot_S128x256_S256x128_S128x128_1_0_0_1_n_n.lhsIdx_val_of_single rfl i q,
   fun i q => dot_S128x256_S256x128_S128x128_1_0_0_1_n_n.rhsIdx_val_of_single rfl i q,
   fun i q => by
    unfold DotDims.rhsIdx
    rw [dif_neg (show ¬(1 : Fin S256x128.rank) ∈ dot_S128x256_S256x128_S128x128_1_0_0_1_n_n.rhsBatch by decide), dif_pos (show (1 : Fin S256x128.rank) ∈ dot_S128x256_S256x128_S128x128_1_0_0_1_n_n.rhsNonContracting by decide)]
    rfl⟩
theorem plainBlk3 : Plain (M := 128) (K := 128) (N := 2) dot_S128x128_S128x2_S128x2_1_0_0_1_n_n :=
  ⟨rfl, rfl,
   fun i q => by
    unfold DotDims.lhsIdx
    rw [dif_neg (show ¬(0 : Fin S128x128.rank) ∈ dot_S128x128_S128x2_S128x2_1_0_0_1_n_n.lhsBatch by decide), dif_pos (show (0 : Fin S128x128.rank) ∈ dot_S128x128_S128x2_S128x2_1_0_0_1_n_n.lhsNonContracting by decide)]
    rfl,
   fun i q => dot_S128x128_S128x2_S128x2_1_0_0_1_n_n.lhsIdx_val_of_single rfl i q,
   fun i q => dot_S128x128_S128x2_S128x2_1_0_0_1_n_n.rhsIdx_val_of_single rfl i q,
   fun i q => by
    unfold DotDims.rhsIdx
    rw [dif_neg (show ¬(1 : Fin S128x2.rank) ∈ dot_S128x128_S128x2_S128x2_1_0_0_1_n_n.rhsBatch by decide), dif_pos (show (1 : Fin S128x2.rank) ∈ dot_S128x128_S128x2_S128x2_1_0_0_1_n_n.rhsNonContracting by decide)]
    rfl⟩

/-- So are the host's whole-array records. -/
theorem plainRef1 : Plain (M := 512) (K := 8192) (N := 256) Cert.ReferenceIdeal.dot_S512x8192_S8192x256_S512x256_1_0_0_1_n_n :=
  ⟨rfl, rfl, Cert.ReferenceIdeal.Read.lhs_main_v90_0, Cert.ReferenceIdeal.Read.lhs_main_v90_1, Cert.ReferenceIdeal.Read.rhs_main_v90_0, Cert.ReferenceIdeal.Read.rhs_main_v90_1⟩
theorem plainRef2 : Plain (M := 512) (K := 256) (N := 128) Cert.ReferenceIdeal.dot_S512x256_S256x128_S512x128_1_0_0_1_n_n :=
  ⟨rfl, rfl, Cert.ReferenceIdeal.Read.lhs_main_v95_0, Cert.ReferenceIdeal.Read.lhs_main_v95_1, Cert.ReferenceIdeal.Read.rhs_main_v95_0, Cert.ReferenceIdeal.Read.rhs_main_v95_1⟩
theorem plainRef3 : Plain (M := 512) (K := 128) (N := 2) Cert.ReferenceIdeal.dot_S512x128_S128x2_S512x2_1_0_0_1_n_n :=
  ⟨rfl, rfl, Cert.ReferenceIdeal.Read.lhs_main_v100_0, Cert.ReferenceIdeal.Read.lhs_main_v100_1, Cert.ReferenceIdeal.Read.rhs_main_v100_0, Cert.ReferenceIdeal.Read.rhs_main_v100_1⟩

/-- The head on whole arrays, in the host's operations. -/
def head (H : FVec Ideal S512x8192 .f32) (A1 : FVec Ideal S8192x256 .f32) (B1 : FVec Ideal S1x256 .f32)
    (A2 : FVec Ideal S256x128 .f32) (B2 : FVec Ideal S1x128 .f32) (A3 : FVec Ideal S128x2 .f32) (B3 : FVec Ideal S1x2 .f32) :
    FVec Ideal S512x2 .f32 :=
  addf (Host.dotGeneral Cert.ReferenceIdeal.dot_S512x128_S128x2_S512x2_1_0_0_1_n_n none
      (addf (Host.dotGeneral Cert.ReferenceIdeal.dot_S512x256_S256x128_S512x128_1_0_0_1_n_n none
          (addf (Host.dotGeneral Cert.ReferenceIdeal.dot_S512x8192_S8192x256_S512x256_1_0_0_1_n_n none H A1)
            (broadcastInDim Cert.ReferenceIdeal.S512x256 ![0, 1] Cert.ReferenceIdeal.Facts₀.bcast_S1x256_S512x256_0_1 B1)) A2)
        (broadcastInDim Cert.ReferenceIdeal.S512x128 ![0, 1] Cert.ReferenceIdeal.Facts₀.bcast_S1x128_S512x128_0_1 B2)) A3)
    (broadcastInDim S512x2 ![0, 1] Cert.ReferenceIdeal.Facts₀.bcast_S1x2_S512x2_0_1 B3)

/-- The body's stored value on a block of rows is that block of rows of the head. -/
theorem pay_rowBlk {off : Nat} {x0 : FVec Ideal S128x8192 .f32} {H : FVec Ideal S512x8192 .f32} (h : RowBlk off x0 H)
    (a1 : FVec Ideal S8192x256 .f32) (b1 : FVec Ideal S1x256 .f32) (a2 : FVec Ideal S256x128 .f32) (b2 : FVec Ideal S1x128 .f32)
    (a3 : FVec Ideal S128x2 .f32) (b3 : FVec Ideal S1x2 .f32) :
    RowBlk off (k3_pay1 (F := Ideal) x0 a1 b1 a2 b2 a3 b3) (head H a1 b1 a2 b2 a3 b3) := by
  unfold k3_pay1 head
  simp only [shapeCast_self]
  exact (((((h.matmul plainBlk1 plainRef1 a1 _ _).add (RowBlk.bias b1 _ _)).matmul plainBlk2 plainRef2 a2 _ _).add
    (RowBlk.bias b2 _ _)).matmul plainBlk3 plainRef3 a3 _ _).add (RowBlk.bias b3 _ _)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The pooled features' block at point t is the block of rows that starts at row 128·t. -/
theorem rows0 (c : Dev nD) (t : Fin cfg3.N) :
    RowBlk (M := 512) (128 * t.val) (iblk3 V c 0 t : FVec Ideal S128x8192 .f32) (V c main_v73) := fun r hr q => by
  obtain ⟨e00, e01, -⟩ := idx_facts t
  show V c main_v73 (((cfg3.win 0).blk t).view.emb (ix2 r q)) = V c main_v73 (ix2 ⟨128 * t.val + r.val, hr⟩ q)
  refine congrArg _ (funext fun a => Fin.ext ?_)
  match a with
  | ⟨0, _⟩ => show win3_0.index t (0 : Fin 2) * 128 + 1 * r.val = 128 * t.val + r.val; omega
  | ⟨1, _⟩ => show win3_0.index t (1 : Fin 2) * 8192 + 1 * q.val = q.val; omega

/-- A window whose one block is its whole array: the block is the array. -/
theorem whole1 (c : Dev nD) (t : Fin cfg3.N) : (iblk3 V c 1 t : FVec Ideal S8192x256 .f32) = V c main_v74 := by
  obtain ⟨-, -, e0, e1, -⟩ := idx_facts t
  funext y
  show V c main_v74 (((cfg3.win 1).blk t).view.emb y) = V c main_v74 y
  refine congrArg _ (funext fun a => Fin.ext ?_)
  match a with
  | ⟨0, _⟩ => show win3_1.index t (0 : Fin 2) * 8192 + 1 * (y 0).val = (y 0).val; omega
  | ⟨1, _⟩ => show win3_1.index t (1 : Fin 2) * 256 + 1 * (y 1).val = (y 1).val; omega

theorem whole2 (c : Dev nD) (t : Fin cfg3.N) : (iblk3 V c 2 t : FVec Ideal S1x256 .f32) = V c main_v77 := by
  obtain ⟨-, -, -, -, e0, e1, -⟩ := idx_facts t
  funext y
  show V c main_v77 (((cfg3.win 2).blk t).view.emb y) = V c main_v77 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 256 + 1 * (y 1).val = (y 1).val; omega

theorem whole3 (c : Dev nD) (t : Fin cfg3.N) : (iblk3 V c 3 t : FVec Ideal S256x128 .f32) = V c main_v75 := by
  obtain ⟨-, -, -, -, -, -, e0, e1, -⟩ := idx_facts t
  funext y
  show V c main_v75 (((cfg3.win 3).blk t).view.emb y) = V c main_v75 y
  refine congrArg _ (funext fun a => Fin.ext ?_)
  match a with
  | ⟨0, _⟩ => show win3_3.index t (0 : Fin 2) * 256 + 1 * (y 0).val = (y 0).val; omega
  | ⟨1, _⟩ => show win3_3.index t (1 : Fin 2) * 128 + 1 * (y 1).val = (y 1).val; omega

theorem whole4 (c : Dev nD) (t : Fin cfg3.N) : (iblk3 V c 4 t : FVec Ideal S1x128 .f32) = V c main_v78 := by
  obtain ⟨-, -, -, -, -, -, -, -, e0, e1, -⟩ := idx_facts t
  funext y
  show V c main_v78 (((cfg3.win 4).blk t).view.emb y) = V c main_v78 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

theorem whole5 (c : Dev nD) (t : Fin cfg3.N) : (iblk3 V c 5 t : FVec Ideal S128x2 .f32) = V c main_v76 := by
  obtain ⟨-, -, -, -, -, -, -, -, -, -, e0, e1, -⟩ := idx_facts t
  funext y
  show V c main_v76 (((cfg3.win 5).blk t).view.emb y) = V c main_v76 y
  refine congrArg _ (funext fun a => Fin.ext ?_)
  match a with
  | ⟨0, _⟩ => show win3_5.index t (0 : Fin 2) * 128 + 1 * (y 0).val = (y 0).val; omega
  | ⟨1, _⟩ => show win3_5.index t (1 : Fin 2) * 2 + 1 * (y 1).val = (y 1).val; omega

theorem whole6 (c : Dev nD) (t : Fin cfg3.N) : (iblk3 V c 6 t : FVec Ideal S1x2 .f32) = V c main_v79 := by
  obtain ⟨-, -, -, -, -, -, -, -, -, -, -, -, e0, e1, -⟩ := idx_facts t
  funext y
  show V c main_v79 (((cfg3.win 6).blk t).view.emb y) = V c main_v79 y
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 2 + 1 * (y 1).val = (y 1).val; omega

set_option maxHeartbeats 3200000 in
/-- What point t writes back is block t of the head of the arrays the region found. -/
theorem flushed_eq (c : Dev nD) (t : Fin cfg3.N) :
    (dat3 V c).flushed 7 t = ((cfg3.win 7).blk t).view.read (Elt Ideal)
      (head (V c main_v73) (V c main_v74) (V c main_v77) (V c main_v75) (V c main_v78) (V c main_v76) (V c main_v79)) := by
  show (cfg3.win 7).cut (grid3.coords t) ((dat3 V c).after 7 t) = _
  rw [after3_7]
  unfold out3_7
  rw [View.canon_unit_zero hz]
  simp only [View.ld_unit_zero (S := S128x8192) hz, View.ld_unit_zero (S := S8192x256) hz, View.ld_unit_zero (S := S1x256) hz,
    View.ld_unit_zero (S := S256x128) hz, View.ld_unit_zero (S := S1x128) hz, View.ld_unit_zero (S := S128x2) hz,
    View.ld_unit_zero (S := S1x2) hz]
  rw [whole1 V c t, whole2 V c t, whole3 V c t, whole4 V c t, whole5 V c t, whole6 V c t]
  obtain ⟨-, -, -, -, -, -, -, -, -, -, -, -, -, -, e70, e71⟩ := idx_facts t
  have hN : cfg3.N = 4 := N_3
  funext j
  obtain ⟨r, q, rfl⟩ : ∃ (r : Fin 128) (q : Fin 2), j = ix2 r q := ⟨j 0, j 1, eq_ix2 j⟩
  have ht : t.val < 4 := hN ▸ t.isLt
  have hr : 128 * t.val + r.val < 512 := by have := r.isLt; omega
  have hemb : ((cfg3.win 7).blk t).view.emb (ix2 r q) = ix2 (⟨128 * t.val + r.val, hr⟩ : Fin 512) q := by
    funext a; apply Fin.ext
    match a with
    | ⟨0, _⟩ => show win3_7.index t (0 : Fin 2) * 128 + 1 * r.val = 128 * t.val + r.val; omega
    | ⟨1, _⟩ => show win3_7.index t (1 : Fin 2) * 2 + 1 * q.val = q.val; omega
  show k3_pay1 (iblk3 V c 0 t) (V c main_v74) (V c main_v77) (V c main_v75) (V c main_v78) (V c main_v76) (V c main_v79) (ix2 r q)
    = head (V c main_v73) (V c main_v74) (V c main_v77) (V c main_v75) (V c main_v78) (V c main_v76) (V c main_v79) (((cfg3.win 7).blk t).view.emb (ix2 r q))
  rw [hemb]
  exact pay_rowBlk (rows0 V c t) (V c main_v74) (V c main_v77) (V c main_v75) (V c main_v78) (V c main_v76) (V c main_v79) r hr q

/-- An index of the result array is in point t's block iff each coordinate is in the block's range on its axis. -/
theorem mem_blk (t : Fin cfg3.N) (i : S512x2.Idx) :
    i ∈ ((cfg3.win 7).blk t).view.set ↔ ∀ a : Fin 2, win3_7.index t a * S128x2.size a ≤ (i a).val ∧ (i a).val < win3_7.index t a * S128x2.size a + S128x2.size a := by
  show i ∈ ((View.whole main_v80).slice (win3_7.rect t)).set ↔ _
  rw [View.set_slice_whole, Rect.mem_set_unit]
  exact Iff.rfl

/-- The 4 blocks tile the result array: row i is in block i / 128. -/
theorem cover (i : S512x2.Idx) : ∃ t : Fin cfg3.N, (cfg3.win 7).flush t = true ∧ i ∈ ((cfg3.win 7).blk t).view.set := by
  have hi0 : (i 0).val < 512 := (i 0).isLt
  have hi1 : (i 1).val < 2 := (i 1).isLt
  have hN : cfg3.N = 4 := N_3
  have hlt : (i 0).val / 128 < cfg3.N := by omega
  obtain ⟨-, -, -, -, -, -, -, -, -, -, -, -, -, -, e70, e71⟩ := idx_facts ⟨(i 0).val / 128, hlt⟩
  refine ⟨⟨(i 0).val / 128, hlt⟩, flush3_7 _, ?_⟩
  rw [mem_blk]
  intro a
  match a with
  | ⟨0, _⟩ =>
    show win3_7.index ⟨(i 0).val / 128, hlt⟩ (0 : Fin 2) * 128 ≤ (i 0).val ∧ (i 0).val < win3_7.index ⟨(i 0).val / 128, hlt⟩ (0 : Fin 2) * 128 + 128
    rw [e70]; show (i 0).val / 128 * 128 ≤ (i 0).val ∧ (i 0).val < (i 0).val / 128 * 128 + 128; omega
  | ⟨1, _⟩ =>
    show win3_7.index ⟨(i 0).val / 128, hlt⟩ (1 : Fin 2) * 2 ≤ (i 1).val ∧ (i 1).val < win3_7.index ⟨(i 0).val / 128, hlt⟩ (1 : Fin 2) * 2 + 2
    rw [e71]; omega

/-- THE RESULT ARRAY after the last region: the head of the arrays the region found. -/
theorem value (c : Dev nD) :
    (dat3 V c).arrAt 7 cfg3.N = head (V c main_v73) (V c main_v74) (V c main_v77) (V c main_v75) (V c main_v78) (V c main_v76) (V c main_v79) :=
  (dat3 V c).arrAt_eq_of_cover 7 _ (fun t _ => flushed_eq V c t) cover

end Cert.KernelIdeal.Head

end
-- ==== Proof.Fold.lean ====
/-
  The idealized kernel's buffers at the boundaries between its segments, each as the host's own stage of the
  arguments.

  The program is three stretches of host operations, then dense layer 0, a stretch, dense layer 1, a stretch, dense
  layer 2, a stretch, and the head. The host stretches are, operation for operation, the ones the reference program
  runs between its own layers (slices of the edge list, the degree scatter, the normalised edge weights, a gather of
  the features along the sources, a scatter-add along the destinations, transposes of the head's weights), so a
  buffer a stretch writes holds the reference's stage of the same name applied to the same arguments: that is read
  off the fold through the stretch, no index opened. A region's output array holds the layer of the arrays the
  region found (modules Layer0, Layer1, Layer2, Head), and that layer is the reference's stage too, the bias row
  [1, n] being the same row whether the bias vector was reshaped or broadcast into it. Going boundary by boundary,
  the result buffer ends at the reference's last stage of the arguments.
-/
import proofs.«101510_j16277926052611_2_alg».proof.Proof.Layer0
import proofs.«101510_j16277926052611_2_alg».proof.Proof.Layer1
import proofs.«101510_j16277926052611_2_alg».proof.Proof.Layer2
import proofs.«101510_j16277926052611_2_alg».proof.Proof.Head

set_option maxRecDepth 131072
set_option maxHeartbeats 8000000

noncomputable section

namespace Cert.KernelIdeal.Fold

open Cert.KernelIdeal Cert.KernelIdeal.Gen
open Idealize.ShloMosaic Idealize.ShloMosaic.TcCoe Idealize.ShloMosaic.StableHlo Cert.Lib.DenseLayer

variable (m : (ℓ : Loc nD τ sig) → Buf (Elt Ideal) ℓ) (ρ : Dev nD → PrngReg) (c : Dev nD)

/-! ## The arguments as launched -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)
abbrev a15 := m ((c : Thread nD τ).loc main_arg15)
abbrev a16 := m ((c : Thread nD τ).loc main_arg16)
abbrev a17 := m ((c : Thread nD τ).loc main_arg17)

/-- The first layer's output, the second's, the third's: the reference's stages of the arguments. -/
abbrev h0 := Cert.ReferenceIdeal.Read.val_main_v47 (F := Ideal) (a0 m c) (a1 m c) (a2 m c) (a3 m c) (a4 m c) (a5 m c)
abbrev h1 := Cert.ReferenceIdeal.Read.val_main_v67 (F := Ideal) (a0 m c) (a1 m c) (a2 m c) (a3 m c) (a4 m c) (a5 m c) (a6 m c) (a7 m c) (a8 m c)
abbrev h2 := Cert.ReferenceIdeal.Read.val_main_v87 (F := Ideal) (a0 m c) (a1 m c) (a2 m c) (a3 m c) (a4 m c) (a5 m c) (a6 m c) (a7 m c) (a8 m c) (a9 m c) (a10 m c) (a11 m c)

/-! ## Region 0's entry: after the first three stretches -/
theorem V3_v1 : V3 m ρ c main_v1 = Cert.ReferenceIdeal.Read.val_main_v1 (F := Ideal) (a1 m c) := by
  show StableHlo.after hostOps0_2 (StableHlo.after hostOps0_1 (StableHlo.after hostOps0 (W0 m ρ c))) (Proc.devRef .tc main_v1) = _
  after_results_simp
  all_goals rfl
theorem V3_v3 : V3 m ρ c main_v3 = Cert.ReferenceIdeal.Read.val_main_v3 (F := Ideal) (a1 m c) := by
  show StableHlo.after hostOps0_2 (StableHlo.after hostOps0_1 (StableHlo.after hostOps0 (W0 m ρ c))) (Proc.devRef .tc main_v3) = _
  after_results_simp
  all_goals rfl
/-- After the first stretch: the degree's sign test, its inverse square root, and the zero that fills in where the
    degree is not positive. -/
theorem W1_v8 : W1 m ρ c (Proc.devRef .tc main_v8) = Cert.ReferenceIdeal.Read.val_main_v8 (F := Ideal) (a1 m c) (a2 m c) := by
  show StableHlo.after hostOps0 (W0 m ρ c) (Proc.devRef .tc main_v8) = _
  after_results_simp
  all_goals rfl
theorem W1_v9 : W1 m ρ c (Proc.devRef .tc main_v9) = Cert.ReferenceIdeal.Read.val_main_v9 (F := Ideal) (a1 m c) (a2 m c) := by
  show StableHlo.after hostOps0 (W0 m ρ c) (Proc.devRef .tc main_v9) = _
  after_results_simp
  all_goals rfl
theorem W1_cst_1 : W1 m ρ c (Proc.devRef .tc main_cst_1) = Cert.ReferenceIdeal.Read.val_main_cst_1 (F := Ideal) := by
  show StableHlo.after hostOps0 (W0 m ρ c) (Proc.devRef .tc main_cst_1) = _
  after_results_simp
  all_goals rfl

/-- Contents carried along an equality of buffer types and then carried back are the contents one started with. -/
theorem ofBuf_toBuf {sig : RefSig} {Val : EltTy → Type} {T : BufTy} (x : StableHlo.TRef sig T) (v : T.Contents Val) :
    x.ofBuf (x.toBuf v) = v := by
  obtain ⟨r, h, h1, h2⟩ := x
  subst h
  rfl

/-! The outlined selection reads and writes its buffers through transports along equalities of buffer types. For a
    named buffer the two types are the same type by computation, so the transport is the identity; each is stated
    for arbitrary contents, so that nothing about the contents is ever unfolded. -/
theorem ofBuf_v8 (V : (⟨S262144, .i1⟩ : BufTy).Contents (Elt Ideal)) :
    (StableHlo.TRef.of main_v8 : StableHlo.TRef sig ⟨S262144, .i1⟩).ofBuf V = V := rfl
theorem ofBuf_v9 (V : (⟨S262144, .f32⟩ : BufTy).Contents (Elt Ideal)) :
    (StableHlo.TRef.of main_v9 : StableHlo.TRef sig ⟨S262144, .f32⟩).ofBuf V = V := rfl
theorem ofBuf_cst_1 (V : (⟨S_, .f32⟩ : BufTy).Contents (Elt Ideal)) :
    (StableHlo.TRef.of main_cst_1 : StableHlo.TRef sig ⟨S_, .f32⟩).ofBuf V = V := rfl
theorem toBuf_call0_v0 (V : (⟨S_, .f32⟩ : BufTy).Contents (Elt Ideal)) :
    (StableHlo.TRef.of main_call0_v0 : StableHlo.TRef sig ⟨S_, .f32⟩).toBuf V = V := rfl
theorem toBuf_v10 (V : (⟨S262144, .f32⟩ : BufTy).Contents (Elt Ideal)) :
    (StableHlo.TRef.of main_v10 : StableHlo.TRef sig ⟨S262144, .f32⟩).toBuf V = V := rfl

/-- After the second stretch (the outlined selection): the inverse square root of the degree where the degree is
    positive, zero elsewhere. With the three operands named by the reference's stages, every transport around them
    is the identity or cancels against its inverse, and what is left is the defining equation of the reference's
    own selection: the sign test, the inverse square root, and the zero broadcast to every node. -/
theorem W2_v10 : W2 m ρ c (Proc.devRef .tc main_v10) = Cert.ReferenceIdeal.Read.val_main_v10 (F := Ideal) (a1 m c) (a2 m c) := by
  have e8 := W1_v8 m ρ c
  have e9 := W1_v9 m ρ c
  have ec := W1_cst_1 m ρ c
  show StableHlo.after hostOps0_1 (W1 m ρ c) (Proc.devRef .tc main_v10) = _
  generalize W1 m ρ c = W at e8 e9 ec ⊢
  after_results_simp
  rw [e8, e9, ec]
  rw [ofBuf_v8, ofBuf_v9, ofBuf_cst_1]
  rw [ofBuf_cst_1, toBuf_call0_v0]
  refine (toBuf_v10 _).trans ?_
  rw [ofBuf_toBuf]
  rfl
theorem W2_v1 : W2 m ρ c (Proc.devRef .tc main_v1) = Cert.ReferenceIdeal.Read.val_main_v1 (F := Ideal) (a1 m c) := by
  show StableHlo.after hostOps0_1 (StableHlo.after hostOps0 (W0 m ρ c)) (Proc.devRef .tc main_v1) = _
  after_results_simp
  all_goals rfl
theorem W2_v3 : W2 m ρ c (Proc.devRef .tc main_v3) = Cert.ReferenceIdeal.Read.val_main_v3 (F := Ideal) (a1 m c) := by
  show StableHlo.after hostOps0_1 (StableHlo.after hostOps0 (W0 m ρ c)) (Proc.devRef .tc main_v3) = _
  after_results_simp
  all_goals rfl
theorem W2_arg0 : W2 m ρ c (Proc.devRef .tc main_arg0) = a0 m c := by
  show StableHlo.after hostOps0_1 (StableHlo.after hostOps0 (W0 m ρ c)) (Proc.devRef .tc main_arg0) = _
  after_results_simp
  all_goals rfl
theorem W2_arg2 : W2 m ρ c (Proc.devRef .tc main_arg2) = a2 m c := by
  show StableHlo.after hostOps0_1 (StableHlo.after hostOps0 (W0 m ρ c)) (Proc.devRef .tc main_arg2) = _
  after_results_simp
  all_goals rfl

/-- After the third stretch: the normalised edge weights, and the first layer's propagated features. -/
theorem V3_v27 : V3 m ρ c main_v27 = Cert.ReferenceIdeal.Read.val_main_v27 (F := Ideal) (a1 m c) (a2 m c) := by
  have e10 := W2_v10 m ρ c
  have e1 := W2_v1 m ρ c
  have e3 := W2_v3 m ρ c
  have e2 := W2_arg2 m ρ c
  show StableHlo.after hostOps0_2 (W2 m ρ c) (Proc.devRef .tc main_v27) = _
  generalize W2 m ρ c = W at e10 e1 e3 e2 ⊢
  after_results_simp
  rw [e10, e1, e3, e2]
  all_goals rfl
theorem V3_v40 : V3 m ρ c main_v40 = Cert.ReferenceIdeal.Read.val_main_v40 (F := Ideal) (a0 m c) (a1 m c) (a2 m c) := by
  have e10 := W2_v10 m ρ c
  have e1 := W2_v1 m ρ c
  have e3 := W2_v3 m ρ c
  have e2 := W2_arg2 m ρ c
  have e0 := W2_arg0 m ρ c
  show StableHlo.after hostOps0_2 (W2 m ρ c) (Proc.devRef .tc main_v40) = _
  generalize W2 m ρ c = W at e10 e1 e3 e2 e0 ⊢
  after_results_simp
  rw [e10, e1, e3, e2, e0]
  all_goals rfl
theorem V3_v41 : V3 m ρ c main_v41 = shapeCast S1x32 (a5 m c) shapeCasts_S32_S1x32 := by
  show StableHlo.after hostOps0_2 (StableHlo.after hostOps0_1 (StableHlo.after hostOps0 (W0 m ρ c))) (Proc.devRef .tc main_v41) = _
  after_results_simp
  all_goals rfl
theorem V3_arg0 : V3 m ρ c main_arg0 = (a0 m c) := by
  show StableHlo.after hostOps0_2 (StableHlo.after hostOps0_1 (StableHlo.after hostOps0 (W0 m ρ c))) (Proc.devRef .tc main_arg0) = _
  after_results_simp
  all_goals rfl
theorem V3_arg3 : V3 m ρ c main_arg3 = (a3 m c) := by
  show StableHlo.after hostOps0_2 (StableHlo.after hostOps0_1 (StableHlo.after hostOps0 (W0 m ρ c))) (Proc.devRef .tc main_arg3) = _
  after_results_simp
  all_goals rfl
theorem V3_arg4 : V3 m ρ c main_arg4 = (a4 m c) := by
  show StableHlo.after hostOps0_2 (StableHlo.after hostOps0_1 (StableHlo.after hostOps0 (W0 m ρ c))) (Proc.devRef .tc main_arg4) = _
  after_results_simp
  all_goals rfl
theorem V3_arg6 : V3 m ρ c main_arg6 = (a6 m c) := by
  show StableHlo.after hostOps0_2 (StableHlo.after hostOps0_1 (StableHlo.after hostOps0 (W0 m ρ c))) (Proc.devRef .tc main_arg6) = _
  after_results_simp
  all_goals rfl
theorem V3_arg7 : V3 m ρ c main_arg7 = (a7 m c) := by
  show StableHlo.after hostOps0_2 (StableHlo.after hostOps0_1 (StableHlo.after hostOps0 (W0 m ρ c))) (Proc.devRef .tc main_arg7) = _
  after_results_simp
  all_goals rfl
theorem V3_arg8 : V3 m ρ c main_arg8 = (a8 m c) := by
  show StableHlo.after hostOps0_2 (StableHlo.after hostOps0_1 (StableHlo.after hostOps0 (W0 m ρ c))) (Proc.devRef .tc main_arg8) = _
  after_results_simp
  all_goals rfl
theorem V3_arg9 : V3 m ρ c main_arg9 = (a9 m c) := by
  show StableHlo.after hostOps0_2 (StableHlo.after hostOps0_1 (StableHlo.after hostOps0 (W0 m ρ c))) (Proc.devRef .tc main_arg9) = _
  after_results_simp
  all_goals rfl
theorem V3_arg10 : V3 m ρ c main_arg10 = (a10 m c) := by
  show StableHlo.after hostOps0_2 (StableHlo.after hostOps0_1 (StableHlo.after hostOps0 (W0 m ρ c))) (Proc.devRef .tc main_arg10) = _
  after_results_simp
  all_goals rfl
theorem V3_arg11 : V3 m ρ c main_arg11 = (a11 m c) := by
  show StableHlo.after hostOps0_2 (StableHlo.after hostOps0_1 (StableHlo.after hostOps0 (W0 m ρ c))) (Proc.devRef .tc main_arg11) = _
  after_results_simp
  all_goals rfl
theorem V3_arg12 : V3 m ρ c main_arg12 = (a12 m c) := by
  show StableHlo.after hostOps0_2 (StableHlo.after hostOps0_1 (StableHlo.after hostOps0 (W0 m ρ c))) (Proc.devRef .tc main_arg12) = _
  after_results_simp
  all_goals rfl
theorem V3_arg13 : V3 m ρ c main_arg13 = (a13 m c) := by
  show StableHlo.after hostOps0_2 (StableHlo.after hostOps0_1 (StableHlo.after hostOps0 (W0 m ρ c))) (Proc.devRef .tc main_arg13) = _
  after_results_simp
  all_goals rfl
theorem V3_arg14 : V3 m ρ c main_arg14 = (a14 m c) := by
  show StableHlo.after hostOps0_2 (StableHlo.after hostOps0_1 (StableHlo.after hostOps0 (W0 m ρ c))) (Proc.devRef .tc main_arg14) = _
  after_results_simp
  all_goals rfl
theorem V3_arg15 : V3 m ρ c main_arg15 = (a15 m c) := by
  show StableHlo.after hostOps0_2 (StableHlo.after hostOps0_1 (StableHlo.after hostOps0 (W0 m ρ c))) (Proc.devRef .tc main_arg15) = _
  after_results_simp
  all_goals rfl
theorem V3_arg16 : V3 m ρ c main_arg16 = (a16 m c) := by
  show StableHlo.after hostOps0_2 (StableHlo.after hostOps0_1 (StableHlo.after hostOps0 (W0 m ρ c))) (Proc.devRef .tc main_arg16) = _
  after_results_simp
  all_goals rfl
theorem V3_arg17 : V3 m ρ c main_arg17 = (a17 m c) := by
  show StableHlo.after hostOps0_2 (StableHlo.after hostOps0_1 (StableHlo.after hostOps0 (W0 m ρ c))) (Proc.devRef .tc main_arg17) = _
  after_results_simp
  all_goals rfl

/-! ## Region 0: dense layer 0 -/

theorem W4_v42 : W4 m ρ c (Proc.devRef .tc main_v42) = h0 m c :=
  (W4_arr m ρ c 5).trans ((Layer0.value (V3 m ρ) c).trans (by
    rw [V3_arg0 m ρ c, V3_v40 m ρ c, V3_arg3 m ρ c, V3_arg4 m ρ c, V3_v41 m ρ c,
      addUnit_eq_bcast (α := EReal) (n := 32) (by decide) (a5 m c) shapeCasts_S32_S1x32 Cert.ReferenceIdeal.Facts₀.bcast_S32_S1x32_1]
    all_goals rfl))
theorem W4_v1 : W4 m ρ c (Proc.devRef .tc main_v1) = Cert.ReferenceIdeal.Read.val_main_v1 (F := Ideal) (a1 m c) :=
  (W4_of_ne m ρ c main_v1 (by decide)).trans (V3_v1 m ρ c)
theorem W4_v3 : W4 m ρ c (Proc.devRef .tc main_v3) = Cert.ReferenceIdeal.Read.val_main_v3 (F := Ideal) (a1 m c) :=
  (W4_of_ne m ρ c main_v3 (by decide)).trans (V3_v3 m ρ c)
theorem W4_v27 : W4 m ρ c (Proc.devRef .tc main_v27) = Cert.ReferenceIdeal.Read.val_main_v27 (F := Ideal) (a1 m c) (a2 m c) :=
  (W4_of_ne m ρ c main_v27 (by decide)).trans (V3_v27 m ρ c)
theorem W4_arg6 : W4 m ρ c (Proc.devRef .tc main_arg6) = (a6 m c) :=
  (W4_of_ne m ρ c main_arg6 (by decide)).trans (V3_arg6 m ρ c)
theorem W4_arg7 : W4 m ρ c (Proc.devRef .tc main_arg7) = (a7 m c) :=
  (W4_of_ne m ρ c main_arg7 (by decide)).trans (V3_arg7 m ρ c)
theorem W4_arg8 : W4 m ρ c (Proc.devRef .tc main_arg8) = (a8 m c) :=
  (W4_of_ne m ρ c main_arg8 (by decide)).trans (V3_arg8 m ρ c)
theorem W4_arg9 : W4 m ρ c (Proc.devRef .tc main_arg9) = (a9 m c) :=
  (W4_of_ne m ρ c main_arg9 (by decide)).trans (V3_arg9 m ρ c)
theorem W4_arg10 : W4 m ρ c (Proc.devRef .tc main_arg10) = (a10 m c) :=
  (W4_of_ne m ρ c main_arg10 (by decide)).trans (V3_arg10 m ρ c)
theorem W4_arg11 : W4 m ρ c (Proc.devRef .tc main_arg11) = (a11 m c) :=
  (W4_of_ne m ρ c main_arg11 (by decide)).trans (V3_arg11 m ρ c)
theorem W4_arg12 : W4 m ρ c (Proc.devRef .tc main_arg12) = (a12 m c) :=
  (W4_of_ne m ρ c main_arg12 (by decide)).trans (V3_arg12 m ρ c)
theorem W4_arg13 : W4 m ρ c (Proc.devRef .tc main_arg13) = (a13 m c) :=
  (W4_of_ne m ρ c main_arg13 (by decide)).trans (V3_arg13 m ρ c)
theorem W4_arg14 : W4 m ρ c (Proc.devRef .tc main_arg14) = (a14 m c) :=
  (W4_of_ne m ρ c main_arg14 (by decide)).trans (V3_arg14 m ρ c)
theorem W4_arg15 : W4 m ρ c (Proc.devRef .tc main_arg15) = (a15 m c) :=
  (W4_of_ne m ρ c main_arg15 (by decide)).trans (V3_arg15 m ρ c)
theorem W4_arg16 : W4 m ρ c (Proc.devRef .tc main_arg16) = (a16 m c) :=
  (W4_of_ne m ρ c main_arg16 (by decide)).trans (V3_arg16 m ρ c)
theorem W4_arg17 : W4 m ρ c (Proc.devRef .tc main_arg17) = (a17 m c) :=
  (W4_of_ne m ρ c main_arg17 (by decide)).trans (V3_arg17 m ρ c)

/-! ## Region 1's entry: after the stretch that propagates layer 0's output along the edges -/
theorem V5_v42 : V5 m ρ c main_v42 = h0 m c := by
  show StableHlo.after hostOps1 (W4 m ρ c) (Proc.devRef .tc main_v42) = _
  after_results_simp
  exact W4_v42 m ρ c
theorem V5_v55 : V5 m ρ c main_v55 = Cert.ReferenceIdeal.Read.val_main_v60 (F := Ideal) (a0 m c) (a1 m c) (a2 m c) (a3 m c) (a4 m c) (a5 m c) := by
  show StableHlo.after hostOps1 (W4 m ρ c) (Proc.devRef .tc main_v55) = _
  after_results_simp
  rw [W4_v42 m ρ c, W4_v27 m ρ c, W4_v1 m ρ c, W4_v3 m ρ c]
  all_goals rfl
theorem V5_v56 : V5 m ρ c main_v56 = shapeCast S1x32 (a8 m c) shapeCasts_S32_S1x32 := by
  show StableHlo.after hostOps1 (W4 m ρ c) (Proc.devRef .tc main_v56) = _
  after_results_simp
  rw [W4_arg8 m ρ c]
  all_goals rfl
theorem V5_v1 : V5 m ρ c main_v1 = Cert.ReferenceIdeal.Read.val_main_v1 (F := Ideal) (a1 m c) := by
  show StableHlo.after hostOps1 (W4 m ρ c) (Proc.devRef .tc main_v1) = _
  after_results_simp
  exact W4_v1 m ρ c
theorem V5_v3 : V5 m ρ c main_v3 = Cert.ReferenceIdeal.Read.val_main_v3 (F := Ideal) (a1 m c) := by
  show StableHlo.after hostOps1 (W4 m ρ c) (Proc.devRef .tc main_v3) = _
  after_results_simp
  exact W4_v3 m ρ c
theorem V5_v27 : V5 m ρ c main_v27 = Cert.ReferenceIdeal.Read.val_main_v27 (F := Ideal) (a1 m c) (a2 m c) := by
  show StableHlo.after hostOps1 (W4 m ρ c) (Proc.devRef .tc main_v27) = _
  after_results_simp
  exact W4_v27 m ρ c
theorem V5_arg6 : V5 m ρ c main_arg6 = (a6 m c) := by
  show StableHlo.after hostOps1 (W4 m ρ c) (Proc.devRef .tc main_arg6) = _
  after_results_simp
  exact W4_arg6 m ρ c
theorem V5_arg7 : V5 m ρ c main_arg7 = (a7 m c) := by
  show StableHlo.after hostOps1 (W4 m ρ c) (Proc.devRef .tc main_arg7) = _
  after_results_simp
  exact W4_arg7 m ρ c
theorem V5_arg9 : V5 m ρ c main_arg9 = (a9 m c) := by
  show StableHlo.after hostOps1 (W4 m ρ c) (Proc.devRef .tc main_arg9) = _
  after_results_simp
  exact W4_arg9 m ρ c
theorem V5_arg10 : V5 m ρ c main_arg10 = (a10 m c) := by
  show StableHlo.after hostOps1 (W4 m ρ c) (Proc.devRef .tc main_arg10) = _
  after_results_simp
  exact W4_arg10 m ρ c
theorem V5_arg11 : V5 m ρ c main_arg11 = (a11 m c) := by
  show StableHlo.after hostOps1 (W4 m ρ c) (Proc.devRef .tc main_arg11) = _
  after_results_simp
  exact W4_arg11 m ρ c
theorem V5_arg12 : V5 m ρ c main_arg12 = (a12 m c) := by
  show StableHlo.after hostOps1 (W4 m ρ c) (Proc.devRef .tc main_arg12) = _
  after_results_simp
  exact W4_arg12 m ρ c
theorem V5_arg13 : V5 m ρ c main_arg13 = (a13 m c) := by
  show StableHlo.after hostOps1 (W4 m ρ c) (Proc.devRef .tc main_arg13) = _
  after_results_simp
  exact W4_arg13 m ρ c
theorem V5_arg14 : V5 m ρ c main_arg14 = (a14 m c) := by
  show StableHlo.after hostOps1 (W4 m ρ c) (Proc.devRef .tc main_arg14) = _
  after_results_simp
  exact W4_arg14 m ρ c
theorem V5_arg15 : V5 m ρ c main_arg15 = (a15 m c) := by
  show StableHlo.after hostOps1 (W4 m ρ c) (Proc.devRef .tc main_arg15) = _
  after_results_simp
  exact W4_arg15 m ρ c
theorem V5_arg16 : V5 m ρ c main_arg16 = (a16 m c) := by
  show StableHlo.after hostOps1 (W4 m ρ c) (Proc.devRef .tc main_arg16) = _
  after_results_simp
  exact W4_arg16 m ρ c
theorem V5_arg17 : V5 m ρ c main_arg17 = (a17 m c) := by
  show StableHlo.after hostOps1 (W4 m ρ c) (Proc.devRef .tc main_arg17) = _
  after_results_simp
  exact W4_arg17 m ρ c

/-! ## Region 1: dense layer 1 -/

theorem W6_v57 : W6 m ρ c (Proc.devRef .tc main_v57) = h1 m c :=
  (W6_arr m ρ c 5).trans ((Layer1.value (V5 m ρ) c).trans (by
    rw [V5_v42 m ρ c, V5_v55 m ρ c, V5_arg6 m ρ c, V5_arg7 m ρ c, V5_v56 m ρ c,
      addUnit_eq_bcast (α := EReal) (n := 32) (by decide) (a8 m c) shapeCasts_S32_S1x32 Cert.ReferenceIdeal.Facts₀.bcast_S32_S1x32_1]
    all_goals rfl))
theorem W6_v1 : W6 m ρ c (Proc.devRef .tc main_v1) = Cert.ReferenceIdeal.Read.val_main_v1 (F := Ideal) (a1 m c) :=
  (W6_of_ne m ρ c main_v1 (by decide)).trans (V5_v1 m ρ c)
theorem W6_v3 : W6 m ρ c (Proc.devRef .tc main_v3) = Cert.ReferenceIdeal.Read.val_main_v3 (F := Ideal) (a1 m c) :=
  (W6_of_ne m ρ c main_v3 (by decide)).trans (V5_v3 m ρ c)
theorem W6_v27 : W6 m ρ c (Proc.devRef .tc main_v27) = Cert.ReferenceIdeal.Read.val_main_v27 (F := Ideal) (a1 m c) (a2 m c) :=
  (W6_of_ne m ρ c main_v27 (by decide)).trans (V5_v27 m ρ c)
theorem W6_arg9 : W6 m ρ c (Proc.devRef .tc main_arg9) = (a9 m c) :=
  (W6_of_ne m ρ c main_arg9 (by decide)).trans (V5_arg9 m ρ c)
theorem W6_arg10 : W6 m ρ c (Proc.devRef .tc main_arg10) = (a10 m c) :=
  (W6_of_ne m ρ c main_arg10 (by decide)).trans (V5_arg10 m ρ c)
theorem W6_arg11 : W6 m ρ c (Proc.devRef .tc main_arg11) = (a11 m c) :=
  (W6_of_ne m ρ c main_arg11 (by decide)).trans (V5_arg11 m ρ c)
theorem W6_arg12 : W6 m ρ c (Proc.devRef .tc main_arg12) = (a12 m c) :=
  (W6_of_ne m ρ c main_arg12 (by decide)).trans (V5_arg12 m ρ c)
theorem W6_arg13 : W6 m ρ c (Proc.devRef .tc main_arg13) = (a13 m c) :=
  (W6_of_ne m ρ c main_arg13 (by decide)).trans (V5_arg13 m ρ c)
theorem W6_arg14 : W6 m ρ c (Proc.devRef .tc main_arg14) = (a14 m c) :=
  (W6_of_ne m ρ c main_arg14 (by decide)).trans (V5_arg14 m ρ c)
theorem W6_arg15 : W6 m ρ c (Proc.devRef .tc main_arg15) = (a15 m c) :=
  (W6_of_ne m ρ c main_arg15 (by decide)).trans (V5_arg15 m ρ c)
theorem W6_arg16 : W6 m ρ c (Proc.devRef .tc main_arg16) = (a16 m c) :=
  (W6_of_ne m ρ c main_arg16 (by decide)).trans (V5_arg16 m ρ c)
theorem W6_arg17 : W6 m ρ c (Proc.devRef .tc main_arg17) = (a17 m c) :=
  (W6_of_ne m ρ c main_arg17 (by decide)).trans (V5_arg17 m ρ c)

/-! ## Region 2's entry -/
theorem V7_v57 : V7 m ρ c main_v57 = h1 m c := by
  show StableHlo.after hostOps2 (W6 m ρ c) (Proc.devRef .tc main_v57) = _
  after_results_simp
  exact W6_v57 m ρ c
theorem V7_v70 : V7 m ρ c main_v70 = Cert.ReferenceIdeal.Read.val_main_v80 (F := Ideal) (a0 m c) (a1 m c) (a2 m c) (a3 m c) (a4 m c) (a5 m c) (a6 m c) (a7 m c) (a8 m c) := by
  show StableHlo.after hostOps2 (W6 m ρ c) (Proc.devRef .tc main_v70) = _
  after_results_simp
  rw [W6_v57 m ρ c, W6_v27 m ρ c, W6_v1 m ρ c, W6_v3 m ρ c]
  all_goals rfl
theorem V7_v71 : V7 m ρ c main_v71 = shapeCast S1x16 (a11 m c) shapeCasts_S16_S1x16 := by
  show StableHlo.after hostOps2 (W6 m ρ c) (Proc.devRef .tc main_v71) = _
  after_results_simp
  rw [W6_arg11 m ρ c]
  all_goals rfl
theorem V7_arg9 : V7 m ρ c main_arg9 = (a9 m c) := by
  show StableHlo.after hostOps2 (W6 m ρ c) (Proc.devRef .tc main_arg9) = _
  after_results_simp
  exact W6_arg9 m ρ c
theorem V7_arg10 : V7 m ρ c main_arg10 = (a10 m c) := by
  show StableHlo.after hostOps2 (W6 m ρ c) (Proc.devRef .tc main_arg10) = _
  after_results_simp
  exact W6_arg10 m ρ c
theorem V7_arg12 : V7 m ρ c main_arg12 = (a12 m c) := by
  show StableHlo.after hostOps2 (W6 m ρ c) (Proc.devRef .tc main_arg12) = _
  after_results_simp
  exact W6_arg12 m ρ c
theorem V7_arg13 : V7 m ρ c main_arg13 = (a13 m c) := by
  show StableHlo.after hostOps2 (W6 m ρ c) (Proc.devRef .tc main_arg13) = _
  after_results_simp
  exact W6_arg13 m ρ c
theorem V7_arg14 : V7 m ρ c main_arg14 = (a14 m c) := by
  show StableHlo.after hostOps2 (W6 m ρ c) (Proc.devRef .tc main_arg14) = _
  after_results_simp
  exact W6_arg14 m ρ c
theorem V7_arg15 : V7 m ρ c main_arg15 = (a15 m c) := by
  show StableHlo.after hostOps2 (W6 m ρ c) (Proc.devRef .tc main_arg15) = _
  after_results_simp
  exact W6_arg15 m ρ c
theorem V7_arg16 : V7 m ρ c main_arg16 = (a16 m c) := by
  show StableHlo.after hostOps2 (W6 m ρ c) (Proc.devRef .tc main_arg16) = _
  after_results_simp
  exact W6_arg16 m ρ c
theorem V7_arg17 : V7 m ρ c main_arg17 = (a17 m c) := by
  show StableHlo.after hostOps2 (W6 m ρ c) (Proc.devRef .tc main_arg17) = _
  after_results_simp
  exact W6_arg17 m ρ c

/-! ## Region 2: dense layer 2 -/

theorem W8_v72 : W8 m ρ c (Proc.devRef .tc main_v72) = h2 m c :=
  (W8_arr m ρ c 5).trans ((Layer2.value (V7 m ρ) c).trans (by
    rw [V7_v57 m ρ c, V7_v70 m ρ c, V7_arg9 m ρ c, V7_arg10 m ρ c, V7_v71 m ρ c,
      addUnit_eq_bcast (α := EReal) (n := 16) (by decide) (a11 m c) shapeCasts_S16_S1x16 Cert.ReferenceIdeal.Facts₀.bcast_S16_S1x16_1]
    all_goals rfl))
theorem W8_arg12 : W8 m ρ c (Proc.devRef .tc main_arg12) = (a12 m c) :=
  (W8_of_ne m ρ c main_arg12 (by decide)).trans (V7_arg12 m ρ c)
theorem W8_arg13 : W8 m ρ c (Proc.devRef .tc main_arg13) = (a13 m c) :=
  (W8_of_ne m ρ c main_arg13 (by decide)).trans (V7_arg13 m ρ c)
theorem W8_arg14 : W8 m ρ c (Proc.devRef .tc main_arg14) = (a14 m c) :=
  (W8_of_ne m ρ c main_arg14 (by decide)).trans (V7_arg14 m ρ c)
theorem W8_arg15 : W8 m ρ c (Proc.devRef .tc main_arg15) = (a15 m c) :=
  (W8_of_ne m ρ c main_arg15 (by decide)).trans (V7_arg15 m ρ c)
theorem W8_arg16 : W8 m ρ c (Proc.devRef .tc main_arg16) = (a16 m c) :=
  (W8_of_ne m ρ c main_arg16 (by decide)).trans (V7_arg16 m ρ c)
theorem W8_arg17 : W8 m ρ c (Proc.devRef .tc main_arg17) = (a17 m c) :=
  (W8_of_ne m ρ c main_arg17 (by decide)).trans (V7_arg17 m ρ c)

/-! ## The head's entry: the pooled features and the transposed weights -/

theorem V9_v73 : V9 m ρ c main_v73 = Cert.ReferenceIdeal.Read.val_main_v88 (F := Ideal) (a0 m c) (a1 m c) (a2 m c) (a3 m c) (a4 m c) (a5 m c) (a6 m c) (a7 m c) (a8 m c) (a9 m c) (a10 m c) (a11 m c) := by
  show StableHlo.after hostOps3 (W8 m ρ c) (Proc.devRef .tc main_v73) = _
  after_results_simp
  rw [W8_v72 m ρ c]
  all_goals rfl
theorem V9_v74 : V9 m ρ c main_v74 = Cert.ReferenceIdeal.Read.val_main_v89 (F := Ideal) (a12 m c) := by
  show StableHlo.after hostOps3 (W8 m ρ c) (Proc.devRef .tc main_v74) = _
  after_results_simp
  rw [W8_arg12 m ρ c]
  all_goals rfl
theorem V9_v75 : V9 m ρ c main_v75 = Cert.ReferenceIdeal.Read.val_main_v94 (F := Ideal) (a14 m c) := by
  show StableHlo.after hostOps3 (W8 m ρ c) (Proc.devRef .tc main_v75) = _
  after_results_simp
  rw [W8_arg14 m ρ c]
  all_goals rfl
theorem V9_v76 : V9 m ρ c main_v76 = Cert.ReferenceIdeal.Read.val_main_v99 (F := Ideal) (a16 m c) := by
  show StableHlo.after hostOps3 (W8 m ρ c) (Proc.devRef .tc main_v76) = _
  after_results_simp
  rw [W8_arg16 m ρ c]
  all_goals rfl
theorem V9_v77 : V9 m ρ c main_v77 = shapeCast S1x256 (a13 m c) shapeCasts_S256_S1x256 := by
  show StableHlo.after hostOps3 (W8 m ρ c) (Proc.devRef .tc main_v77) = _
  after_results_simp
  rw [W8_arg13 m ρ c]
  all_goals rfl
theorem V9_v78 : V9 m ρ c main_v78 = shapeCast S1x128 (a15 m c) shapeCasts_S128_S1x128 := by
  show StableHlo.after hostOps3 (W8 m ρ c) (Proc.devRef .tc main_v78) = _
  after_results_simp
  rw [W8_arg15 m ρ c]
  all_goals rfl
theorem V9_v79 : V9 m ρ c main_v79 = shapeCast S1x2 (a17 m c) shapeCasts_S2_S1x2 := by
  show StableHlo.after hostOps3 (W8 m ρ c) (Proc.devRef .tc main_v79) = _
  after_results_simp
  rw [W8_arg17 m ρ c]
  all_goals rfl

/-! ## The head: the result buffer at the last boundary -/

/-- THE RESULT: what the fold leaves in the result buffer is the reference's last stage of the arguments. -/
theorem result : W10 m ρ c (Proc.devRef .tc main_v80) = Cert.ReferenceIdeal.Read.val_main_v103 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) :=
  (W10_arr m ρ c 7).trans ((Head.value (V9 m ρ) c).trans (by
    rw [V9_v73 m ρ c, V9_v74 m ρ c, V9_v77 m ρ c, V9_v75 m ρ c, V9_v78 m ρ c, V9_v76 m ρ c, V9_v79 m ρ c,
      addUnit_eq_bcast (α := EReal) (n := 256) (by decide) (a13 m c) shapeCasts_S256_S1x256 Cert.ReferenceIdeal.Facts₀.bcast_S256_S1x256_1,
      addUnit_eq_bcast (α := EReal) (n := 128) (by decide) (a15 m c) shapeCasts_S128_S1x128 Cert.ReferenceIdeal.Facts₀.bcast_S128_S1x128_1,
      addUnit_eq_bcast (α := EReal) (n := 2) (by decide) (a17 m c) shapeCasts_S2_S1x2 Cert.ReferenceIdeal.Facts₀.bcast_S2_S1x2_1]
    all_goals rfl))

end Cert.KernelIdeal.Fold

end
-- ==== Proof.lean ====
/-
  A three-layer graph network with a three-layer head, computed by four tiled kernels among host operations,
  against the same network written with whole-array host operations.

  Both programs compute, from the node features x, the edge list and the edge weights:
    deg = scatter-add of the weights along the sources, dinv = deg^(-1/2) where deg > 0 and 0 elsewhere,
    norm(e) = -w(e) · dinv(src e) · dinv(dst e);
    three times  h ↦ max(h·W0 + P(h)·W1 + b, 0)  with  P(h) = scatter-add along dst of norm(e) · h(src e);
    then, on the 512 × 8192 reshape of the last h, three linear layers with bias.
  The host operations that build norm and P are the same operations in both programs. What differs is how a dense
  layer and the head are computed: the kernels work on blocks of rows (8192 rows per block for a dense layer, 128
  for the head), with narrowing casts of the matrix products' operands that are the identity at the extended
  reals, and with the bias as a 1 × n row loaded whole. Every operation of a layer acts on each row by itself, so a
  block of the kernel's output is the same block of rows of the layer applied to the whole arrays, and the blocks
  tile the output: the two programs end with the same array. No law that needs finiteness is used (both sides
  form the same sums of the same products), so the precondition is not opened.

  The three frames: the kernels' are the generated frame certificates, the reference's is its generated run with the
  result forgotten. The idealization rewrote no operation, so the preservation claim is trivial.
-/
import proofs.«101510_j16277926052611_2_alg».proof.Defs
import proofs.«101510_j16277926052611_2_alg».proof.Proof.Gen.Kernel
import proofs.«101510_j16277926052611_2_alg».proof.Proof.Gen.Kernel.Skeleton
import proofs.«101510_j16277926052611_2_alg».proof.Proof.Gen.Kernel.Launch
import proofs.«101510_j16277926052611_2_alg».proof.Proof.Gen.Kernel.Points
import proofs.«101510_j16277926052611_2_alg».proof.Proof.Gen.Kernel.Frame
import proofs.«101510_j16277926052611_2_alg».proof.Proof.Gen.KernelIdeal
import proofs.«101510_j16277926052611_2_alg».proof.Proof.Gen.KernelIdeal.Skeleton
import proofs.«101510_j16277926052611_2_alg».proof.Proof.Gen.KernelIdeal.Launch
import proofs.«101510_j16277926052611_2_alg».proof.Proof.Gen.KernelIdeal.Points
import proofs.«101510_j16277926052611_2_alg».proof.Proof.Gen.KernelIdeal.Frame
import proofs.«101510_j16277926052611_2_alg».proof.Proof.Gen.ReferenceIdeal
import proofs.«101510_j16277926052611_2_alg».proof.Proof.Gen.Pre_finite_inputs
import proofs.«101510_j16277926052611_2_alg».proof.Proof.Gen.ReferenceIdeal.Run
import proofs.«101510_j16277926052611_2_alg».proof.Proof.Gen.ReferenceIdeal.Read
import proofs.«101510_j16277926052611_2_alg».proof.Proof.KernelRun
import proofs.«101510_j16277926052611_2_alg».proof.Proof.Fold
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- The idealized kernel's run: the result buffer ends at the reference's last stage of the kernel's own
    arguments (the boundaries' fold), the arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v80)
        = Cert.ReferenceIdeal.Read.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) :=
  (θ_run Cert.KernelIdeal.defs _ _).mono (fun r h c => ⟨(h c).1.trans (Cert.KernelIdeal.Fold.result m ρ c), (h c).2⟩)
    (Cert.KernelIdeal.ResultRun.run_result m ρ)

/-- From memories that agree on the arguments the two idealized programs end with the same result: the
    reference's last stage of the arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17⟩ := hagree c
  rw [Cert.ReferenceIdeal.Read.val_main_v103_eq, e0, e1, e2, e3, e4, e5, e6, e7, e8, e9, e10, e11, e12, e13, e14, e15, e16, e17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
